-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4 : Shape := ⟨3, ![8, 4096, 4]⟩
abbrev S8x4096 : Shape := ⟨2, ![8, 4096]⟩
abbrev S8x2048x4 : Shape := ⟨3, ![8, 2048, 4]⟩
abbrev S4096 : Shape := ⟨1, ![4096]⟩
abbrev S_ : Shape := ⟨0, ![]⟩

class Facts : Prop where
  bcast_S_S8x4096x4 : S_.BroadcastsInDim S8x4096x4 (![] : Fin 0 → Fin S8x4096x4.rank)
  reducesTo_S8x4096x4_S_d0_1_2 : S8x4096x4.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S8x2048x4 : S_.BroadcastsInDim S8x2048x4 (![] : Fin 0 → Fin S8x2048x4.rank)
  reducesTo_S8x2048x4_S_d0_1_2 : S8x2048x4.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x4096x4 .f32) (main_arg1 : FVec F S8x4096 .f32) (main_arg2 : IVec S8x4096 32) (main_arg3 : FVec F S8x2048x4 .f32) (main_arg4 : FVec F S4096 .f32) (main_arg5 : IVec S4096 32) : IVec S_ 1 :=
  let main_v0 : FVec F S8x4096x4 .f32 := Host.absf main_arg0
  let main_cst : FVec F S_ .f32 := constant S_ .f32 0x7F800000#32
  let main_v1 : FVec F S8x4096x4 .f32 := broadcastInDim S8x4096x4 ![] bcast_S_S8x4096x4 main_cst
  let main_v2 : IVec S8x4096x4 1 := cmpf .olt main_v0 main_v1
  let main_c : IVec S_ 1 := constantI S_ 1 1#1
  let main_v3 : IVec S_ 1 := (fun x v => Host.reduce IntOp.andi x v reducesTo_S8x4096x4_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S8x2048x4 .f32 := Host.absf main_arg3
  let main_cst_2 : FVec F S_ .f32 := constant S_ .f32 0x7F800000#32
  let main_v10 : FVec F S8x2048x4 .f32 := broadcastInDim S8x2048x4 ![] bcast_S_S8x2048x4 main_cst_2
  let main_v11 : IVec S8x2048x4 1 := cmpf .olt main_v9 main_v10
  let main_c_3 : IVec S_ 1 := constantI S_ 1 1#1
  let main_v12 : IVec S_ 1 := (fun x v => Host.reduce IntOp.andi x v reducesTo_S8x2048x4_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x4096x4 : Shape := ⟨3, ![8, 4096, 4]⟩
abbrev S8x4096 : Shape := ⟨2, ![8, 4096]⟩
abbrev S8x2048x4 : Shape := ⟨3, ![8, 2048, 4]⟩
abbrev S4096 : Shape := ⟨1, ![4096]⟩
abbrev S8x1x1 : Shape := ⟨3, ![8, 1, 1]⟩
abbrev S8x512x4 : Shape := ⟨3, ![8, 512, 4]⟩
abbrev S8x512 : Shape := ⟨2, ![8, 512]⟩
abbrev S8x128x4 : Shape := ⟨3, ![8, 128, 4]⟩
abbrev S8x512x1 : Shape := ⟨3, ![8, 512, 1]⟩
abbrev S8x128x1 : Shape := ⟨3, ![8, 128, 1]⟩
abbrev S8x128 : Shape := ⟨2, ![8, 128]⟩
abbrev S8x1x128 : Shape := ⟨3, ![8, 1, 128]⟩
abbrev S8x512x128 : Shape := ⟨3, ![8, 512, 128]⟩
abbrev S8x1 : Shape := ⟨2, ![8, 1]⟩
abbrev S8 : Shape := ⟨1, ![8]⟩
abbrev S_ : Shape := ⟨0, ![]⟩
abbrev S1 : Shape := ⟨1, ![1]⟩
abbrev S2 : Shape := ⟨1, ![2]⟩

abbrev nBuf : Space → Nat
  | .hbm => 24
  | .vmem => 9
  | .smem => 0
  | _ => 0

abbrev bufTy : (tb : Table) → Fin (tcTables nBuf tb) → BufTy
  | .hbm, ⟨0, _⟩ => ⟨S8x4096x4, .f32⟩
  | .hbm, ⟨1, _⟩ => ⟨S8x4096, .f32⟩
  | .hbm, ⟨2, _⟩ => ⟨S8x4096, .i32⟩
  | .hbm, ⟨3, _⟩ => ⟨S8x2048x4, .f32⟩
  | .hbm, ⟨4, _⟩ => ⟨S4096, .f32⟩
  | .hbm, ⟨5, _⟩ => ⟨S4096, .i32⟩
  | .hbm, ⟨6, _⟩ => ⟨S8x1x1, .f32⟩
  | .hbm, ⟨7, _⟩ => ⟨S8, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S2, .f32⟩
  | .local _ .vmem, ⟨0, _⟩ => ⟨S8x512x4, .f32⟩
  | .local _ .vmem, ⟨1, _⟩ => ⟨S8x512x4, .f32⟩
  | .local _ .vmem, ⟨2, _⟩ => ⟨S8x512, .i32⟩
  | .local _ .vmem, ⟨3, _⟩ => ⟨S8x512, .i32⟩
  | .local _ .vmem, ⟨4, _⟩ => ⟨S8x128x4, .f32⟩
  | .local _ .vmem, ⟨5, _⟩ => ⟨S8x128x4, .f32⟩
  | .local _ .vmem, ⟨6, _⟩ => ⟨S8x1x1, .f32⟩
  | .local _ .vmem, ⟨7, _⟩ => ⟨S8x1x1, .f32⟩
  | .local _ .vmem, ⟨8, _⟩ => ⟨S8x1x1, .f32⟩
  | _, _ => ⟨S8x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c7_i32 : BitVec 32 := 7#32
  let v97 : BitVec 1 := Scalar.cmpi .eq arg0 c7_i32
  let arg1 : BitVec 32 := BitVec.ofNat 32 (i 1).val
  let c15_i32 : BitVec 32 := 15#32
  let v98 : BitVec 1 := Scalar.cmpi .eq arg1 c15_i32
  let v99 : BitVec 1 := Scalar.andi v97 v98
  let v100 : BitVec 32 := Scalar.extui v99
  let c0_i32_29 : BitVec 32 := 0#32
  let v101 : BitVec 1 := Scalar.cmpi .ne v100 c0_i32_29
  v101

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x512x4_S8x512x4_0_0_0 : ∀ a, (![0, 0, 0] : Fin 3 → Nat) a + S8x512x4.size a ≤ S8x512x4.size a
  h_S8x512x4 : 0 < S8x512x4.numel
  inb_S8x512_S8x512_0_0 : ∀ a, (![0, 0] : Fin 2 → Nat) a + S8x512.size a ≤ S8x512.size a
  h_S8x512 : 0 < S8x512.numel
  inb_S8x128x4_S8x128x4_0_0_0 : ∀ a, (![0, 0, 0] : Fin 3 → Nat) a + S8x128x4.size a ≤ S8x128x4.size a
  h_S8x128x4 : 0 < S8x128x4.numel
  slices_S8x512x4_o0_0_0_S8x512x1 : S8x512x4.Slices ![0, 0, 0] S8x512x1
  shapeCasts_S8x512x1_S8x512 : S8x512x1.ShapeCasts S8x512
  slices_S8x512x4_o0_0_1_S8x512x1 : S8x512x4.Slices ![0, 0, 1] S8x512x1
  slices_S8x512x4_o0_0_2_S8x512x1 : S8x512x4.Slices ![0, 0, 2] S8x512x1
  slices_S8x512x4_o0_0_3_S8x512x1 : S8x512x4.Slices ![0, 0, 3] S8x512x1
  slices_S8x128x4_o0_0_0_S8x128x1 : S8x128x4.Slices ![0, 0, 0] S8x128x1
  shapeCasts_S8x128x1_S8x128 : S8x128x1.ShapeCasts S8x128
  slices_S8x128x4_o0_0_1_S8x128x1 : S8x128x4.Slices ![0, 0, 1] S8x128x1
  slices_S8x128x4_o0_0_2_S8x128x1 : S8x128x4.Slices ![0, 0, 2] S8x128x1
  slices_S8x128x4_o0_0_3_S8x128x1 : S8x128x4.Slices ![0, 0, 3] S8x128x1
  shapeCasts_S8x512_S8x512x1 : S8x512.ShapeCasts S8x512x1
  shapeCasts_S8x128_S8x1x128 : S8x128.ShapeCasts S8x1x128
  broadcasts_S8x512x1_S8x512x128 : S8x512x1.Broadcasts S8x512x128
  broadcasts_S8x1x128_S8x512x128 : S8x1x128.Broadcasts S8x512x128
  natLt_1_32 : 1 < 32
  reduces_S8x128x4_S8x128 : S8x128x4.Reduces [2] S8x128
  reduces_S8x512x128_S8x512 : S8x512x128.Reduces [2] S8x512
  reduces_S8x512x1_S8x1 : S8x512x1.Reduces [1] S8x1
  shapeCasts_S8x1_S8x1x1 : S8x1.ShapeCasts S8x1x1
  reduces_S8x512_S8 : S8x512.Reduces [1] S8
  shapeCasts_S8_S8x1 : S8.ShapeCasts S8x1
  shapeCasts_S8x1x1_S8 : S8x1x1.ShapeCasts S8
  reducesTo_S8_S_d0 : S8.ReducesTo [0] S_
  h_S_ : 0 < S_.numel
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  concatenates_S1_S1_S2_d0 : Shape.Concatenates [S1, S1] S2 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x4.size a ≤ S8x4096x4.size a
  hwx0_0 : ∀ i : grid0.Coords, EltTy.bits .f32 = 32 ∨ (Rect.block (s := S8x4096x4) S8x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x4096.size a
  hwx0_1 : ∀ i : grid0.Coords, EltTy.bits .i32 = 32 ∨ (Rect.block (s := S8x4096) S8x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x4.size a ≤ S8x2048x4.size a
  hwx0_2 : ∀ i : grid0.Coords, EltTy.bits .f32 = 32 ∨ (Rect.block (s := S8x2048x4) S8x128x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1x1.size a ≤ S8x1x1.size a
  hwx0_3 : ∀ i : grid0.Coords, EltTy.bits .f32 = 32 ∨ (Rect.block (s := S8x1x1) S8x1x1.size (cc0_transform_3 i) (hinb0_3 i)).WholeWords (EltTy.packing .f32)

variable [Facts₀]

abbrev win0_0 : Pipeline.Window sig grid0 :=
  Pipeline.Window.ofSpec (Memref.whole main_arg0) S8x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x4 : Shape := ⟨3, ![8, 4096, 4]⟩
abbrev S8x4096 : Shape := ⟨2, ![8, 4096]⟩
abbrev S8x2048x4 : Shape := ⟨3, ![8, 2048, 4]⟩
abbrev S4096 : Shape := ⟨1, ![4096]⟩
abbrev S8x4096x1x4 : Shape := ⟨4, ![8, 4096, 1, 4]⟩
abbrev S8x1x2048x4 : Shape := ⟨4, ![8, 1, 2048, 4]⟩
abbrev S8x4096x1x1 : Shape := ⟨4, ![8, 4096, 1, 1]⟩
abbrev S8x4096x1 : Shape := ⟨3, ![8, 4096, 1]⟩
abbrev S8x1x2048x1 : Shape := ⟨4, ![8, 1, 2048, 1]⟩
abbrev S8x1x2048 : Shape := ⟨3, ![8, 1, 2048]⟩
abbrev S8x4096x2048 : Shape := ⟨3, ![8, 4096, 2048]⟩
abbrev S_ : Shape := ⟨0, ![]⟩
abbrev S8x2048 : Shape := ⟨2, ![8, 2048]⟩
abbrev S8 : Shape := ⟨1, ![8]⟩
abbrev S1 : Shape := ⟨1, ![1]⟩
abbrev S2 : Shape := ⟨1, ![2]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x4, .f32⟩
  | .hbm, ⟨1, _⟩ => ⟨S8x4096, .f32⟩
  | .hbm, ⟨2, _⟩ => ⟨S8x4096, .i32⟩
  | .hbm, ⟨3, _⟩ => ⟨S8x2048x4, .f32⟩
  | .hbm, ⟨4, _⟩ => ⟨S4096, .f32⟩
  | .hbm, ⟨5, _⟩ => ⟨S4096, .i32⟩
  | .hbm, ⟨6, _⟩ => ⟨S8x4096x1x4, .f32⟩
  | .hbm, ⟨7, _⟩ => ⟨S8x1x2048x4, .f32⟩
  | .hbm, ⟨8, _⟩ => ⟨S8x4096x1x1, .f32⟩
  | .hbm, ⟨9, _⟩ => ⟨S8x4096x1, .f32⟩
  | .hbm, ⟨10, _⟩ => ⟨S8x1x2048x1, .f32⟩
  | .hbm, ⟨11, _⟩ => ⟨S8x1x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x1x1, .f32⟩
  | .hbm, ⟨16, _⟩ => ⟨S8x4096x1, .f32⟩
  | .hbm, ⟨17, _⟩ => ⟨S8x1x2048x1, .f32⟩
  | .hbm, ⟨18, _⟩ => ⟨S8x1x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x4096x2048, .f32⟩
  | .hbm, ⟨25, _⟩ => ⟨S8x4096x2048, .f32⟩
  | .hbm, ⟨26, _⟩ => ⟨S8x4096x1x1, .f32⟩
  | .hbm, ⟨27, _⟩ => ⟨S8x4096x1, .f32⟩
  | .hbm, ⟨28, _⟩ => ⟨S8x1x2048x1, .f32⟩
  | .hbm, ⟨29, _⟩ => ⟨S8x1x2048, .f32⟩
  | .hbm, ⟨30, _⟩ => ⟨S8x4096x2048, .f32⟩
  | .hbm, ⟨31, _⟩ => ⟨S8x4096x2048, .f32⟩
  | .hbm, ⟨32, _⟩ => ⟨S8x4096x2048, .f32⟩
  | .hbm, ⟨33, _⟩ => ⟨S8x4096x1x1, .f32⟩
  | .hbm, ⟨34, _⟩ => ⟨S8x4096x1, .f32⟩
  | .hbm, ⟨35, _⟩ => ⟨S8x1x2048x1, .f32⟩
  | .hbm, ⟨36, _⟩ => ⟨S8x1x2048, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S8x4096x2048, .f32⟩
  | .hbm, ⟨41, _⟩ => ⟨S_, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S8x4096x1x1, .f32⟩
  | .hbm, ⟨46, _⟩ => ⟨S8x4096x1, .f32⟩
  | .hbm, ⟨47, _⟩ => ⟨S8x4096x1x1, .f32⟩
  | .hbm, ⟨48, _⟩ => ⟨S8x4096x1, .f32⟩
  | .hbm, ⟨49, _⟩ => ⟨S8x4096x1, .f32⟩
  | .hbm, ⟨50, _⟩ => ⟨S8x4096x1x1, .f32⟩
  | .hbm, ⟨51, _⟩ => ⟨S8x4096x1, .f32⟩
  | .hbm, ⟨52, _⟩ => ⟨S8x4096x1x1, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x1x2048x1, .f32⟩
  | .hbm, ⟨57, _⟩ => ⟨S8x1x2048, .f32⟩
  | .hbm, ⟨58, _⟩ => ⟨S8x1x2048x1, .f32⟩
  | .hbm, ⟨59, _⟩ => ⟨S8x1x2048, .f32⟩
  | .hbm, ⟨60, _⟩ => ⟨S8x1x2048, .f32⟩
  | .hbm, ⟨61, _⟩ => ⟨S8x1x2048x1, .f32⟩
  | .hbm, ⟨62, _⟩ => ⟨S8x1x2048, .f32⟩
  | .hbm, ⟨63, _⟩ => ⟨S8x1x2048x1, .f32⟩
  | .hbm, ⟨64, _⟩ => ⟨S8x1x2048, .f32⟩
  | .hbm, ⟨65, _⟩ => ⟨S8x1x2048, .f32⟩
  | .hbm, ⟨66, _⟩ => ⟨S8x1x2048, .f32⟩
  | .hbm, ⟨67, _⟩ => ⟨S8x4096x2048, .f32⟩
  | .hbm, ⟨68, _⟩ => ⟨S8x4096x2048, .f32⟩
  | .hbm, ⟨69, _⟩ => ⟨S8x4096x2048, .f32⟩
  | .hbm, ⟨70, _⟩ => ⟨S8x4096x2048, .f32⟩
  | .hbm, ⟨71, _⟩ => ⟨S_, .f32⟩
  | .hbm, ⟨72, _⟩ => ⟨S8x4096x2048, .f32⟩
  | .hbm, ⟨73, _⟩ => ⟨S8x4096x2048, .f32⟩
  | .hbm, ⟨74, _⟩ => ⟨S8x4096x2048, .f32⟩
  | .hbm, ⟨75, _⟩ => ⟨S_, .i32⟩
  | .hbm, ⟨76, _⟩ => ⟨S8x4096, .i32⟩
  | .hbm, ⟨77, _⟩ => ⟨S8x4096, .i1⟩
  | .hbm, ⟨78, _⟩ => ⟨S_, .f32⟩
  | .hbm, ⟨79, _⟩ => ⟨S8x2048, .f32⟩
  | .hbm, ⟨80, _⟩ => ⟨S_, .f32⟩
  | .hbm, ⟨81, _⟩ => ⟨S8x2048, .f32⟩
  | .hbm, ⟨82, _⟩ => ⟨S8x2048, .i1⟩
  | .hbm, ⟨83, _⟩ => ⟨S8x4096x1, .i1⟩
  | .hbm, ⟨84, _⟩ => ⟨S8x1x2048, .i1⟩
  | .hbm, ⟨85, _⟩ => ⟨S8x4096x2048, .i1⟩
  | .hbm, ⟨86, _⟩ => ⟨S8x4096x2048, .i1⟩
  | .hbm, ⟨87, _⟩ => ⟨S8x4096x2048, .i1⟩
  | .hbm, ⟨88, _⟩ => ⟨S_, .f32⟩
  | .hbm, ⟨89, _⟩ => ⟨S_, .f32⟩
  | .hbm, ⟨90, _⟩ => ⟨S8x4096x2048, .f32⟩
  | .hbm, ⟨91, _⟩ => ⟨S8x4096x2048, .f32⟩
  | .hbm, ⟨92, _⟩ => ⟨S_, .f32⟩
  | .hbm, ⟨93, _⟩ => ⟨S8, .f32⟩
  | .hbm, ⟨94, _⟩ => ⟨S_, .i1⟩
  | .hbm, ⟨95, _⟩ => ⟨S8, .i1⟩
  | .hbm, ⟨96, _⟩ => ⟨S_, .f32⟩
  | .hbm, ⟨97, _⟩ => ⟨S_, .f32⟩
  | .hbm, ⟨98, _⟩ => ⟨S8, .f32⟩
  | .hbm, ⟨99, _⟩ => ⟨S8, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .i32⟩
  | .hbm, ⟨105, _⟩ => ⟨S4096, .i32⟩
  | .hbm, ⟨106, _⟩ => ⟨S4096, .i1⟩
  | .hbm, ⟨107, _⟩ => ⟨S_, .f32⟩
  | .hbm, ⟨108, _⟩ => ⟨S_, .f32⟩
  | .hbm, ⟨109, _⟩ => ⟨S4096, .f32⟩
  | .hbm, ⟨110, _⟩ => ⟨S4096, .f32⟩
  | .hbm, ⟨111, _⟩ => ⟨S_, .f32⟩
  | .hbm, ⟨112, _⟩ => ⟨S_, .f32⟩
  | .hbm, ⟨113, _⟩ => ⟨S1, .f32⟩
  | .hbm, ⟨114, _⟩ => ⟨S1, .f32⟩
  | .hbm, ⟨115, _⟩ => ⟨S2, .f32⟩
  | _, _ => ⟨S8x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_1 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_c : Ref sig .tc := ⟨.hbm, 75, rfl⟩
abbrev main_v66 : Ref sig .tc := ⟨.hbm, 76, rfl⟩
abbrev main_v67 : Ref sig .tc := ⟨.hbm, 77, rfl⟩
abbrev main_cst_2 : Ref sig .tc := ⟨.hbm, 78, rfl⟩
abbrev main_v68 : Ref sig .tc := ⟨.hbm, 79, rfl⟩
abbrev main_cst_3 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_4 : Ref sig .tc := ⟨.hbm, 88, rfl⟩
abbrev main_call0_v0 : Ref sig .tc := ⟨.hbm, 89, rfl⟩
abbrev main_call0_v1 : Ref sig .tc := ⟨.hbm, 90, rfl⟩
abbrev main_v76 : Ref sig .tc := ⟨.hbm, 91, rfl⟩
abbrev main_cst_5 : Ref sig .tc := ⟨.hbm, 92, rfl⟩
abbrev main_v77 : Ref sig .tc := ⟨.hbm, 93, rfl⟩
abbrev main_c_6 : Ref sig .tc := ⟨.hbm, 94, rfl⟩
abbrev main_v78 : Ref sig .tc := ⟨.hbm, 95, rfl⟩
abbrev main_cst_7 : Ref sig .tc := ⟨.hbm, 96, rfl⟩
abbrev main_call1_v0 : Ref sig .tc := ⟨.hbm, 97, rfl⟩
abbrev main_call1_v1 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_c_10 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_call2_v0 : Ref sig .tc := ⟨.hbm, 108, rfl⟩
abbrev main_call2_v1 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  bcast_S8x4096x4_S8x4096x1x4_0_1_3 : S8x4096x4.BroadcastsInDim S8x4096x1x4 (![0, 1, 3] : Fin 3 → Fin S8x4096x1x4.rank)
  bcast_S8x2048x4_S8x1x2048x4_0_2_3 : S8x2048x4.BroadcastsInDim S8x1x2048x4 (![0, 2, 3] : Fin 3 → Fin S8x1x2048x4.rank)
  slices_S8x4096x1x4_S8x4096x1x1_0_0_0_2 : S8x4096x1x4.Slices ![0, 0, 0, 2] S8x4096x1x1
  shapeCasts_S8x4096x1x1_S8x4096x1 : S8x4096x1x1.ShapeCasts S8x4096x1
  slices_S8x1x2048x4_S8x1x2048x1_0_0_0_2 : S8x1x2048x4.Slices ![0, 0, 0, 2] S8x1x2048x1
  shapeCasts_S8x1x2048x1_S8x1x2048 : S8x1x2048x1.ShapeCasts S8x1x2048
  bcast_S8x4096x1_S8x4096x2048_0_1_2 : S8x4096x1.BroadcastsInDim S8x4096x2048 (![0, 1, 2] : Fin 3 → Fin S8x4096x2048.rank)
  bcast_S8x1x2048_S8x4096x2048_0_1_2 : S8x1x2048.BroadcastsInDim S8x4096x2048 (![0, 1, 2] : Fin 3 → Fin S8x4096x2048.rank)
  slices_S8x4096x1x4_S8x4096x1x1_0_0_0_0 : S8x4096x1x4.Slices ![0, 0, 0, 0] S8x4096x1x1
  slices_S8x1x2048x4_S8x1x2048x1_0_0_0_0 : S8x1x2048x4.Slices ![0, 0, 0, 0] S8x1x2048x1
  bcast_S_S8x4096x2048 : S_.BroadcastsInDim S8x4096x2048 (![] : Fin 0 → Fin S8x4096x2048.rank)
  slices_S8x4096x1x4_S8x4096x1x1_0_0_0_3 : S8x4096x1x4.Slices ![0, 0, 0, 3] S8x4096x1x1
  slices_S8x1x2048x4_S8x1x2048x1_0_0_0_3 : S8x1x2048x4.Slices ![0, 0, 0, 3] S8x1x2048x1
  slices_S8x4096x1x4_S8x4096x1x1_0_0_0_1 : S8x4096x1x4.Slices ![0, 0, 0, 1] S8x4096x1x1
  slices_S8x1x2048x4_S8x1x2048x1_0_0_0_1 : S8x1x2048x4.Slices ![0, 0, 0, 1] S8x1x2048x1
  bcast_S_S8x4096 : S_.BroadcastsInDim S8x4096 (![] : Fin 0 → Fin S8x4096.rank)
  reducesTo_S8x2048x4_S8x2048_d2 : S8x2048x4.ReducesTo [2] S8x2048
  h_S_ : 0 < S_.numel
  bcast_S_S8x2048 : S_.BroadcastsInDim S8x2048 (![] : Fin 0 → Fin S8x2048.rank)
  bcast_S8x4096_S8x4096x1_0_1 : S8x4096.BroadcastsInDim S8x4096x1 (![0, 1] : Fin 2 → Fin S8x4096x1.rank)
  bcast_S8x2048_S8x1x2048_0_2 : S8x2048.BroadcastsInDim S8x1x2048 (![0, 2] : Fin 2 → Fin S8x1x2048.rank)
  reducesTo_S8x4096x2048_S8_d1_2 : S8x4096x2048.ReducesTo [1, 2] S8
  reducesTo_S8x4096_S8_d1 : S8x4096.ReducesTo [1] S8
  bcast_S_S8 : S_.BroadcastsInDim S8 (![] : Fin 0 → Fin S8.rank)
  reducesTo_S8_S_d0 : S8.ReducesTo [0] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  concatenates_S1_S1_S2_d0 : Shape.Concatenates [S1, S1] S2 0

variable [Facts₀]

class Facts : Prop extends Facts₀ where

variable [Facts]
-- ==== Proof.Tail.lean ====
/-
  The host operations after the kernel's grid. Both programs end the same way: from the eight per-batch values
  they take the mean, from the two union arrays the largest score among the class-0 entries (minus infinity
  when there is none), and return the pair. `tailOf` is that common ending as one function; the kernel's
  program applies it to its output array [8,1,1] read as a vector of eight.
-/
import proofs.«164905_j52501680227023_2_alg».proof.Proof.Gen.KernelIdeal.Frame
import Idealize.ShloMosaic.Lib.Pipeline.Value
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The host operations both programs end with, as one function of the eight per-batch values and the two
    union arrays: the largest union score among the class-0 entries, and the mean of the per-batch values. -/
def tailOf (y : (⟨S8, .f32⟩ : BufTy).Contents (Elt F)) (us : (⟨S4096, .f32⟩ : BufTy).Contents (Elt F))
    (uc : (⟨S4096, .i32⟩ : BufTy).Contents (Elt F)) : (⟨S2, .f32⟩ : BufTy).Contents (Elt F) :=
  concatenate S2 0
    [⟨S1, broadcastInDim S1 ![] bcast_S_S1
        (Host.reduce FloatOps.maximumf
          (select (cmpi .eq uc (broadcastInDim S4096 ![] bcast_S_S4096 (constantI S_ 32 0#32))) us
            (broadcastInDim S4096 ![] bcast_S_S4096 (id (constant (F := F) S_ .f32 0xFF800000#32))))
          (constant (F := F) S_ .f32 0xFF800000#32) reducesTo_S4096_S_d0 h_S_)⟩,
     ⟨S1, broadcastInDim S1 ![] bcast_S_S1
        (Host.divf (Host.reduceAdd y (constant (F := F) S_ .f32 0x00000000#32) reducesTo_S8_S_d0 h_S_)
          (constant (F := F) S_ .f32 0x41000000#32))⟩]
    concatenates_S1_S1_S2_d0

theorem tail_eq (c : Dev nD) :
    Pipeline.afterTail₀ cfgs (dats m) 0 (V0 m) [hostOps1, hostOps1_1, hostOps1_2] c main_v10
      = tailOf (shapeCast S8 ((dats m 0 c).arrAt 3 cfg0.N) shapeCasts_S8x1x1_S8)
          (m ((c : Thread nD τ).loc main_arg4)) (m ((c : Thread nD τ).loc main_arg5)) := by
  unfold Pipeline.afterTail₀
  have e0 : Pipeline.withArrays (cfgs 0).spec c (V0 m c) (fun w => (dats m 0 c).arrAt w (cfgs 0).N) (Proc.tc.devRef main_v0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.tc.devRef main_arg4)
      = m ((c : Thread nD τ).loc main_arg4) := by
    rw [Pipeline.withArrays_of_ne _ c (V0 m c) _ main_arg4 (by exact (by decide : ∀ w, Pipeline.arrRef spec0 w ≠ main_arg4))]
    exact V_main_arg4 m c
  have e5 : Pipeline.withArrays (cfgs 0).spec c (V0 m c) (fun w => (dats m 0 c).arrAt w (cfgs 0).N) (Proc.tc.devRef main_arg5)
      = m ((c : Thread nD τ).loc main_arg5) := by
    rw [Pipeline.withArrays_of_ne _ c (V0 m c) _ main_arg5 (by exact (by decide : ∀ w, Pipeline.arrRef spec0 w ≠ main_arg5))]
    exact V_main_arg5 m c
  generalize (dats m 0 c).arrAt 3 cfg0.N = A3 at e0 ⊢
  generalize m ((c : Thread nD τ).loc main_arg4) = us at e4 ⊢
  generalize m ((c : Thread nD τ).loc main_arg5) = uc at e5 ⊢
  generalize Pipeline.withArrays (cfgs 0).spec c (V0 m c) (fun w => (dats m 0 c).arrAt w (cfgs 0).N) = W at e0 e4 e5 ⊢
  simp only [hostOps1, hostOps1_1, hostOps1_2, List.flatten_cons, List.flatten_nil, List.append_nil, List.cons_append, List.nil_append]
  after_results
  dsimp only
  rw [e0, e5, e4]
  rfl

end Cert.KernelIdeal.Tail

end
-- ==== Proof.FinalArray.lean ====
/-
  Where the output array ends.

  The grid has 128 points. The output window's one block is the whole [8,1,1] array, its block index is constantly
  zero, and the block is written back to the array after the last point only. So the array ends holding exactly
  what the body left in the block at point 127: the one write-back writes it, and its block covers every index.
-/
import proofs.«164905_j52501680227023_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.FinalArray

open Cert.KernelIdeal Cert.KernelIdeal.Gen

variable {F : FTy → Type} [FloatOps F]
variable (m : (ℓ : Loc nD τ sig) → Buf (Elt F) ℓ)

/-- Point 127 is a point of the grid (it has 128 points). -/
theorem last_lt : 127 < cfg0.N := by rw [show cfg0.N = 128 from N_0]; decide

/-- The last point of the grid. -/
abbrev tLast : Fin cfg0.N := ⟨127, last_lt⟩

/-- What the body leaves in the output block at the last point, as contents of the output array (the block is the
    whole array). -/
abbrev result (c : Dev nD) : Buf (Elt F) ((c : Thread nD τ).loc main_v0) := (outsAt0 m c 127 last_lt).1

/-- The last point's block index is (0, 0, 0): its offsets in the array are all zero. -/
theorem offsets_zero : (fun a => win0_3.index tLast a * main_v0.ty.shape.size a) = fun _ => 0 :=
  funext fun a => by fin_cases a <;> decide +kernel

/-- The last point's block of any contents of the [8,1,1] array, read through its zero offsets, is those contents. -/
theorem cut_eq_read (c : Dev nD) (X : Buf (Elt F) ((c : Thread nD τ).loc main_v0)) :
    (cfg0.win 3).cut (grid0.coords tLast) X = ((cfg0.win 3).blk tLast).view.read (Elt F) X :=
  (Memref.read_access_unit_zero (Elt F) main_v0 offsets_zero
    (fun a => by rw [congrFun offsets_zero a]; simp) X).symm

/-- The value left after a point depends on the point's position only, not on how the position is written. -/
theorem outsAt_congr (c : Dev nD) : ∀ (n n' : ℕ) (h : n < cfg0.N) (h' : n' < cfg0.N), n = n' →
    outsAt0 m c n h = outsAt0 m c n' h'
  | _, _, _, _, rfl => rfl

/-- The one write-back happens at point 127 and writes that value. -/
theorem flushed_eq (c : Dev nD) (t : Fin cfg0.N) (hf : (cfg0.win 3).flush t = true) :
    (dats m 0 c).flushed 3 t = ((cfg0.win 3).blk t).view.read (Elt F) (result m c) := by
  have hN : cfg0.N = 128 := N_0
  have h3 : t.val = 127 := by have := (flush0_3 t).mp hf; have := t.isLt; omega
  obtain rfl : t = tLast := Fin.ext h3
  show (cfg0.win 3).cut (grid0.coords tLast) ((dats m 0 c).after 3 tLast) = _
  rw [after0_3, outsAt_congr m c tLast.val 127 tLast.isLt last_lt rfl]
  exact cut_eq_read c (result m c)

/-- So the output array ends holding what the body left at point 127: that point's block covers every index
    (i₀ < 8, i₁ < 1, i₂ < 1) of the array. -/
theorem final3 (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 8 := (i 0).isLt
      have h1 : (i 1 : Nat) < 1 := (i 1).isLt
      have h2 : (i 2 : Nat) < 1 := (i 2).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 8 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega
      | ⟨2, _⟩ =>
        show win0_3.index tLast 2 * win0_3.size 2 ≤ (i 2 : Nat)
          ∧ (i 2 : Nat) < win0_3.index tLast 2 * win0_3.size 2 + win0_3.xsize (grid0.coords tLast) 2
        rw [show win0_3.index tLast 2 * win0_3.size 2 = 0 from by decide +kernel,
          show win0_3.xsize (grid0.coords tLast) 2 = 1 from by decide +kernel]
        omega⟩

end Cert.KernelIdeal.FinalArray

end
-- ==== Proof.Spec.lean ====
/-
  The mathematics shared by both programs, with no program imported.

  A batch holds N predicted boxes and M ground-truth boxes, each box four corner coordinates (x1, y1, x2, y2).
  `iouOf` is the intersection-over-union of one predicted and one ground-truth box exactly as both programs
  compute it on the extended reals (widths and heights clamped at 0, the union clamped below by the shared
  literal). A predicted box counts when its class word is 0 (`isPerson`), a ground-truth box when its four
  coordinates do not sum to 0 (`isValid`). `perBatch` is the reference's value for one batch: the largest
  IoU over the counted pairs (every other pair contributing 0), and 0 when the batch has no counted predicted box.
  `blockMax` / `blockAny` are what one grid point of the kernel contributes from its three blocks: the masks
  applied as 0/1 factors, first along the ground-truth columns, then along the predicted rows.
  `rowOf` / `colOf` place a block's local row / column in the arrays: grid point t = 16 n + m reads predicted
  rows 512 n … 512 n + 511 and ground-truth rows 128 m … 128 m + 127.
-/
import Idealize.ShloMosaic.PureOps.Ideal
import Idealize.ShloMosaic.Lib.ValueIdx

noncomputable section

open scoped BigOperators
open Classical

namespace Cert.PersonIou

open Idealize.ShloMosaic Idealize.ShloMosaic.ValueIdx

/-- Boxes of 8 batches: entry (b, r, k) is corner coordinate k of box r of batch b. -/
abbrev Boxes (N : Nat) : Type := (⟨3, ![8, N, 4]⟩ : Shape).Idx → EReal
/-- Class words of 8 batches. -/
abbrev Classes (N : Nat) : Type := (⟨2, ![8, N]⟩ : Shape).Idx → BitVec 32

/-- The f32 zero literal both programs clamp with. -/
abbrev zeroLit : EReal := Ideal.ofBits .f32 0x00000000#32
/-- The f32 literal both programs bound the union below with. -/
abbrev epsLit : EReal := Ideal.ofBits .f32 0x3089705F#32

/-- Area of the intersection of predicted box r and ground-truth box c: clamped width times clamped height. -/
def interOf {N M : Nat} (p : Boxes N) (g : Boxes M) (b : Fin 8) (r : Fin N) (c : Fin M) : EReal :=
  max (min (p (ix3 b r (2 : Fin 4))) (g (ix3 b c (2 : Fin 4))) - max (p (ix3 b r (0 : Fin 4))) (g (ix3 b c (0 : Fin 4)))) zeroLit
    * max (min (p (ix3 b r (3 : Fin 4))) (g (ix3 b c (3 : Fin 4))) - max (p (ix3 b r (1 : Fin 4))) (g (ix3 b c (1 : Fin 4)))) zeroLit

/-- Area of box r. -/
def areaOf {N : Nat} (p : Boxes N) (b : Fin 8) (r : Fin N) : EReal :=
  (p (ix3 b r (2 : Fin 4)) - p (ix3 b r (0 : Fin 4))) * (p (ix3 b r (3 : Fin 4)) - p (ix3 b r (1 : Fin 4)))

/-- Intersection over union, the union bounded below by the shared literal. -/
def iouOf {N M : Nat} (p : Boxes N) (g : Boxes M) (b : Fin 8) (r : Fin N) (c : Fin M) : EReal :=
  Ideal.div (interOf p g b r c) (max (areaOf p b r + areaOf g b c - interOf p g b r c) epsLit)

/-- A predicted box counts when its class word is 0. -/
def isPerson {N : Nat} (pc : Classes N) (b : Fin 8) (r : Fin N) : Prop := pc (ix2 b r) = 0#32

/-- The sum of a box's four coordinates. -/
def rowSum {M : Nat} (g : Boxes M) (b : Fin 8) (c : Fin M) : EReal := ∑ k : Fin 4, g (ix3 b c k)

/-- A ground-truth box counts when its coordinates do not sum to 0. -/
def isValid {M : Nat} (g : Boxes M) (b : Fin 8) (c : Fin M) : Prop := rowSum g b c ≠ 0

/-- A condition as a 0/1 factor. -/
def maskE (P : Prop) : EReal := if P then 1 else 0

/-- The reference's masked IoU of one pair. -/
def masked {N M : Nat} (pb : Boxes N) (pc : Classes N) (gb : Boxes M) (b : Fin 8) (r : Fin N) (c : Fin M) : EReal :=
  if isPerson pc b r ∧ isValid gb b c then iouOf pb gb b r c else 0

/-- The reference's value for batch b. -/
def perBatch (pb : Boxes 4096) (pc : Classes 4096) (gb : Boxes 2048) (b : Fin 8) : EReal :=
  if ∃ r : Fin 4096, isPerson pc b r then
    Finset.univ.sup fun r : Fin 4096 => Finset.univ.sup fun c : Fin 2048 => masked pb pc gb b r c
  else 0

/-- What one grid point contributes to the running maximum of batch b, from its three blocks. -/
def blockMax (x0 : Boxes 512) (x1 : Classes 512) (x2 : Boxes 128) (b : Fin 8) : EReal :=
  Finset.univ.sup fun r : Fin 512 =>
    (Finset.univ.sup fun c : Fin 128 => iouOf x0 x2 b r c * maskE (isValid x2 b c)) * maskE (isPerson x1 b r)

/-- What one grid point contributes to the "a counted predicted box was seen" flag of batch b. -/
def blockAny (x1 : Classes 512) (b : Fin 8) : EReal :=
  Finset.univ.sup fun r : Fin 512 => maskE (isPerson x1 b r)

/-- Grid point t = 16 n + m reads predicted rows 512 n + r … -/
def rowOf (t : Fin 128) (r : Fin 512) : Fin 4096 := ⟨512 * (t.val / 16) + r.val, by omega⟩
/-- … and ground-truth rows 128 m + c. -/
def colOf (t : Fin 128) (c : Fin 128) : Fin 2048 := ⟨128 * (t.val % 16) + c.val, by omega⟩

end Cert.PersonIou

end
-- ==== Proof.Blocks.lean ====
/-
  The blocks the pipeline stages, read in the arrays' own coordinates. Grid point t = 16 n + m stages rows
  512 n … 512 n + 511 of the predicted boxes and of the class words, and rows 128 m … 128 m + 127 of the
  ground-truth boxes; so the block-level quantities of a grid point (IoU of a local pair, the two masks)
  are the array-level ones at (rowOf t r, colOf t c).
-/
import proofs.«164905_j52501680227023_2_alg».proof.Proof.Spec
import proofs.«164905_j52501680227023_2_alg».proof.Proof.Gen.KernelIdeal.Frame
import Idealize.ShloMosaic.Lib.Pipeline.Value

noncomputable section

open Classical

namespace Cert.KernelIdeal.Blocks

open Idealize.ShloMosaic Idealize.ShloMosaic.TcCoe Idealize.SL.Sem Idealize.ShloMosaic.ValueIdx
open Cert.KernelIdeal Cert.KernelIdeal.Gen Cert.PersonIou

variable (m : (ℓ : Loc nD τ sig) → Buf (Elt Ideal) ℓ)

/-- A grid point as a number below 128. -/
def pt (t : Fin cfg0.N) : Fin 128 := ⟨t.val, lt_of_lt_of_eq t.isLt N_0⟩

/-- The predicted boxes, the class words and the ground-truth boxes as the kernel's launch finds them. -/
abbrev pbOf (c : Dev nD) : Boxes 4096 := m ((c : Thread nD τ).loc main_arg0)
abbrev pcOf (c : Dev nD) : Classes 4096 := m ((c : Thread nD τ).loc main_arg2)
abbrev gbOf (c : Dev nD) : Boxes 2048 := m ((c : Thread nD τ).loc main_arg3)

theorem idx0 : ∀ t : Fin cfg0.N, win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)
theorem idx1 : ∀ t : Fin cfg0.N, win0_1.index t 0 = 0 ∧ win0_1.index t 1 = t.val / 16 :=
  (by decide +kernel : ∀ t : Fin grid0.N, win0_1.index t 0 = 0 ∧ win0_1.index t 1 = t.val / 16)
theorem idx2 : ∀ t : Fin cfg0.N, win0_2.index t 0 = 0 ∧ win0_2.index t 1 = t.val % 16 ∧ win0_2.index t 2 = 0 :=
  (by decide +kernel : ∀ t : Fin grid0.N, win0_2.index t 0 = 0 ∧ win0_2.index t 1 = t.val % 16 ∧ win0_2.index t 2 = 0)

/-- Entry (b, r, k) of the predicted-box block at point t is entry (b, 512 n + r, k) of the array. -/
theorem iblk0_apply (c : Dev nD) (t : Fin cfg0.N) (b : Fin 8) (r : Fin 512) (k : Fin 4) :
    (iblk m c 0 t : Boxes 512) (ix3 b r k) = pbOf m c (ix3 b (rowOf (pt t) r) k) := by
  unfold iblk
  rw [View.read_apply]
  show V m c main_arg0 _ = m (c.tc.loc main_arg0) _
  refine congrArg _ (funext fun a => Fin.ext ?_)
  obtain ⟨h0, h1, h2⟩ := idx0 t
  match a with
  | ⟨0, _⟩ => show win0_0.index t 0 * 8 + 1 * b.val = b.val; rw [h0]; omega
  | ⟨1, _⟩ => show win0_0.index t 1 * 512 + 1 * r.val = 512 * (t.val / 16) + r.val; rw [h1]; omega
  | ⟨2, _⟩ => show win0_0.index t 2 * 4 + 1 * k.val = k.val; rw [h2]; omega

/-- Entry (b, r) of the class-word block at point t is entry (b, 512 n + r) of the array. -/
theorem iblk1_apply (c : Dev nD) (t : Fin cfg0.N) (b : Fin 8) (r : Fin 512) :
    (iblk m c 1 t : Classes 512) (ix2 b r) = pcOf m c (ix2 b (rowOf (pt t) r)) := by
  unfold iblk
  rw [View.read_apply]
  show V m c main_arg2 _ = m (c.tc.loc main_arg2) _
  refine congrArg _ (funext fun a => Fin.ext ?_)
  obtain ⟨h0, h1⟩ := idx1 t
  match a with
  | ⟨0, _⟩ => show win0_1.index t 0 * 8 + 1 * b.val = b.val; rw [h0]; omega
  | ⟨1, _⟩ => show win0_1.index t 1 * 512 + 1 * r.val = 512 * (t.val / 16) + r.val; rw [h1]; omega

/-- Entry (b, c, k) of the ground-truth block at point t is entry (b, 128 m + c, k) of the array. -/
theorem iblk2_apply (c : Dev nD) (t : Fin cfg0.N) (b : Fin 8) (j : Fin 128) (k : Fin 4) :
    (iblk m c 2 t : Boxes 128) (ix3 b j k) = gbOf m c (ix3 b (colOf (pt t) j) k) := by
  unfold iblk
  rw [View.read_apply]
  show V m c main_arg3 _ = m (c.tc.loc main_arg3) _
  refine congrArg _ (funext fun a => Fin.ext ?_)
  obtain ⟨h0, h1, h2⟩ := idx2 t
  match a with
  | ⟨0, _⟩ => show win0_2.index t 0 * 8 + 1 * b.val = b.val; rw [h0]; omega
  | ⟨1, _⟩ => show win0_2.index t 1 * 128 + 1 * j.val = 128 * (t.val % 16) + j.val; rw [h1]; omega
  | ⟨2, _⟩ => show win0_2.index t 2 * 4 + 1 * k.val = k.val; rw [h2]; omega

/-- The IoU of a local pair of point t is the IoU of the pair it stands for. -/
theorem iou_blk (c : Dev nD) (t : Fin cfg0.N) (b : Fin 8) (r : Fin 512) (j : Fin 128) :
    iouOf (iblk m c 0 t : Boxes 512) (iblk m c 2 t : Boxes 128) b r j
      = iouOf (pbOf m c) (gbOf m c) b (rowOf (pt t) r) (colOf (pt t) j) := by
  unfold iouOf interOf areaOf
  simp only [iblk0_apply, iblk2_apply]

/-- A local ground-truth row counts iff the row it stands for does. -/
theorem valid_blk (c : Dev nD) (t : Fin cfg0.N) (b : Fin 8) (j : Fin 128) :
    isValid (iblk m c 2 t : Boxes 128) b j = isValid (gbOf m c) b (colOf (pt t) j) := by
  unfold isValid rowSum
  simp only [iblk2_apply]

/-- A local predicted row counts iff the row it stands for does. -/
theorem person_blk (c : Dev nD) (t : Fin cfg0.N) (b : Fin 8) (r : Fin 512) :
    isPerson (iblk m c 1 t : Classes 512) b r = isPerson (pcOf m c) b (rowOf (pt t) r) := by
  unfold isPerson
  rw [iblk1_apply]

/-- What point t contributes to the running maximum, in the arrays' coordinates. -/
theorem blockMax_blk (c : Dev nD) (t : Fin cfg0.N) (b : Fin 8) :
    blockMax (iblk m c 0 t : Boxes 512) (iblk m c 1 t : Classes 512) (iblk m c 2 t : Boxes 128) b
      = Finset.univ.sup fun r : Fin 512 =>
          (Finset.univ.sup fun j : Fin 128 => iouOf (pbOf m c) (gbOf m c) b (rowOf (pt t) r) (colOf (pt t) j)
              * (if isValid (gbOf m c) b (colOf (pt t) j) then (1 : EReal) else 0))
            * (if isPerson (pcOf m c) b (rowOf (pt t) r) then (1 : EReal) else 0) := by
  unfold blockMax maskE
  simp only [iou_blk, valid_blk, person_blk]

/-- What point t contributes to the flag, in the arrays' coordinates. -/
theorem blockAny_blk (c : Dev nD) (t : Fin cfg0.N) (b : Fin 8) :
    blockAny (iblk m c 1 t : Classes 512) b
      = Finset.univ.sup fun r : Fin 512 => if isPerson (pcOf m c) b (rowOf (pt t) r) then (1 : EReal) else 0 := by
  unfold blockAny maskE
  simp only [person_blk]

end Cert.KernelIdeal.Blocks

end
-- ==== Proof.Pieces.lean ====
/-
  What each control case of the grid body leaves in its two carried accumulators and, at the last point, in the
  output block — each as the payload term of the values the body loads.

  A grid point computes, from its three blocks, a masked intersection-over-union maximum per batch and a flag
  "some predicted box of the block counts"; it joins the first into a running maximum and the second into a
  running flag, both carried from point to point. The first point starts both from their neutral values
  (minus infinity, zero), every later point from what the point before left; the last point also selects,
  per batch, the running maximum where the flag is positive and zero elsewhere.
-/
import proofs.«164905_j52501680227023_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0, 0] : Fin 3 → Nat) = fun _ => 0 := funext fun a => by fin_cases a <;> rfl
theorem hz2 : (![0, 0] : Fin 2 → Nat) = fun _ => 0 := funext fun a => by fin_cases a <;> rfl

/-- The running maximum one grid point leaves: the blocks' masked IoU maximum joined with the maximum `s` carried in. -/
abbrev runMax (x0 : Vec F S8x512x4 .f32) (x1 : Vec F S8x512 .i32) (x2 : Vec F S8x128x4 .f32) (s : Vec F S8x1x1 .f32) : FVec F S8x1x1 .f32 :=
  k0_pay20 x1 x2 (k0_pay6 x0) (k0_pay7 x0) (k0_pay8 x0) (k0_pay9 x0) (k0_pay10 x2) (k0_pay11 x2) (k0_pay12 x2) (k0_pay13 x2)
    (k0_pay14 x0 x2) (k0_pay15 x0 x2) (k0_pay16 x2) (k0_pay17 x0) s

/-! ## The first point: both accumulators start from their neutral values -/

/-- After the first point the running-maximum scratch holds the point's maximum joined with minus infinity. -/
theorem sout_A_0 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : cond0_0 i) (hc1 : ¬cond0_1 i)
    (x0 : Vec F S8x512x4 .f32) (x1 : Vec F S8x512 .i32) (x2 : Vec F S8x128x4 .f32) :
    sout0_A_0 c i arg2 harg2 arg3 harg3 arg4 harg4 arg5 harg5 arg6 harg6 arg7 harg7 hc0 hc1 x0 x1 x2 = k0_pay1 (runMax x0 x1 x2 k0_pay4) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S8x1x1) hz, View.readCov_unit_zero (S := S8x1x1) _ hz]
  simp only [View.readAt_eq_ld, harg2.read_unread, harg3.read_unread, harg4.read_unread,
    View.ld_unit_zero (S := S8x512x4) hz, View.ld_unit_zero (S := S8x128x4) hz, View.ld_unit_zero (S := S8x512) hz2]

/-- After the first point the flag scratch holds the point's flag joined with zero. -/
theorem sout_A_1 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : cond0_0 i) (hc1 : ¬cond0_1 i)
    (x0 : Vec F S8x512x4 .f32) (x1 : Vec F S8x512 .i32) (x2 : Vec F S8x128x4 .f32) :
    sout0_A_1 c i arg2 harg2 arg3 harg3 arg4 harg4 arg5 harg5 arg6 harg6 arg7 harg7 hc0 hc1 x0 x1 x2 = k0_pay2 (k0_pay19 x1) k0_pay5 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S8x1x1) hz, View.readCov_unit_zero (S := S8x1x1) _ hz]
  simp only [View.readAt_eq_ld, harg3.read_unread, View.ld_unit_zero (S := S8x512) hz2]

/-! ## A middle point: both accumulators continue from the point before -/

/-- After a middle point the running-maximum scratch holds the point's maximum joined with what the point before left. -/
theorem sout_B_0 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : ¬cond0_0 i) (hc1 : ¬cond0_1 i)
    (x0 : Vec F S8x512x4 .f32) (x1 : Vec F S8x512 .i32) (x2 : Vec F S8x128x4 .f32) (xs0 : Vec F S8x1x1 .f32) (xs1 : Vec F S8x1x1 .f32) :
    sout0_B_0 c i arg2 harg2 arg3 harg3 arg4 harg4 arg5 harg5 arg6 harg6 arg7 harg7 hc0 hc1 x0 x1 x2 xs0 xs1 = k0_pay1 (runMax x0 x1 x2 xs0) := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread,
    View.ld_unit_zero (S := S8x512x4) hz, View.ld_unit_zero (S := S8x128x4) hz, View.ld_unit_zero (S := S8x1x1) hz,
    View.ld_unit_zero (S := S8x512) hz2]

/-- After a middle point the flag scratch holds the point's flag joined with what the point before left. -/
theorem sout_B_1 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : ¬cond0_0 i) (hc1 : ¬cond0_1 i)
    (x0 : Vec F S8x512x4 .f32) (x1 : Vec F S8x512 .i32) (x2 : Vec F S8x128x4 .f32) (xs0 : Vec F S8x1x1 .f32) (xs1 : Vec F S8x1x1 .f32) :
    sout0_B_1 c i arg2 harg2 arg3 harg3 arg4 harg4 arg5 harg5 arg6 harg6 arg7 harg7 hc0 hc1 x0 x1 x2 xs0 xs1 = k0_pay2 (k0_pay19 x1) xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg3.read_unread, harg7.read_unread, View.ld_unit_zero (S := S8x1x1) hz,
    View.ld_unit_zero (S := S8x512) hz2]

/-! ## The last point: the same, and the output block selected from the two accumulators -/

/-- After a last point the running-maximum scratch holds the point's maximum joined with what the point before left. -/
theorem sout_C_0 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : ¬cond0_0 i) (hc1 : cond0_1 i)
    (x0 : Vec F S8x512x4 .f32) (x1 : Vec F S8x512 .i32) (x2 : Vec F S8x128x4 .f32) (xs0 : Vec F S8x1x1 .f32) (xs1 : Vec F S8x1x1 .f32) :
    sout0_C_0 c i arg2 harg2 arg3 harg3 arg4 harg4 arg5 harg5 arg6 harg6 arg7 harg7 hc0 hc1 x0 x1 x2 xs0 xs1 = k0_pay1 (runMax x0 x1 x2 xs0) := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread,
    View.ld_unit_zero (S := S8x512x4) hz, View.ld_unit_zero (S := S8x128x4) hz, View.ld_unit_zero (S := S8x1x1) hz,
    View.ld_unit_zero (S := S8x512) hz2]

/-- After a last point the flag scratch holds the point's flag joined with what the point before left. -/
theorem sout_C_1 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : ¬cond0_0 i) (hc1 : cond0_1 i)
    (x0 : Vec F S8x512x4 .f32) (x1 : Vec F S8x512 .i32) (x2 : Vec F S8x128x4 .f32) (xs0 : Vec F S8x1x1 .f32) (xs1 : Vec F S8x1x1 .f32) :
    sout0_C_1 c i arg2 harg2 arg3 harg3 arg4 harg4 arg5 harg5 arg6 harg6 arg7 harg7 hc0 hc1 x0 x1 x2 xs0 xs1 = k0_pay2 (k0_pay19 x1) xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg3.read_unread, harg7.read_unread, View.ld_unit_zero (S := S8x1x1) hz,
    View.ld_unit_zero (S := S8x512) hz2]

/-- The last point's output block: per batch the running maximum just stored where the running flag just stored is
    positive, zero elsewhere. -/
theorem out_C_3 (c : Dev nD) (i : grid0.Coords) (arg2 : Memref sig .tc .vmem S8x512x4 .f32) (harg2 : arg2.IsWhole) (arg3 : Memref sig .tc .vmem S8x512 .i32) (harg3 : arg3.IsWhole) (arg4 : Memref sig .tc .vmem S8x128x4 .f32) (harg4 : arg4.IsWhole) (arg5 : Memref sig .tc .vmem S8x1x1 .f32) (harg5 : arg5.IsWhole) (arg6 : Memref sig .tc .vmem S8x1x1 .f32) (harg6 : arg6.IsWhole) (arg7 : Memref sig .tc .vmem S8x1x1 .f32) (harg7 : arg7.IsWhole) (hc0 : ¬cond0_0 i) (hc1 : cond0_1 i)
    (x0 : Vec F S8x512x4 .f32) (x1 : Vec F S8x512 .i32) (x2 : Vec F S8x128x4 .f32) (xs0 : Vec F S8x1x1 .f32) (xs1 : Vec F S8x1x1 .f32) :
    out0_C_3 c i arg2 harg2 arg3 harg3 arg4 harg4 arg5 harg5 arg6 harg6 arg7 harg7 hc0 hc1 x0 x1 x2 xs0 xs1 = k0_pay3 (k0_pay2 (k0_pay19 x1) xs1) (k0_pay1 (runMax x0 x1 x2 xs0)) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  rw [View.readCov_unit_zero (S := S8x1x1) _ hz, View.readCov_unit_zero (S := S8x1x1) _ hz]
  simp only [View.readAt_eq_ld, harg2.read_unread, harg3.read_unread, harg4.read_unread, harg6.read_unread,
    harg7.read_unread, View.ld_unit_zero (S := S8x512x4) hz, View.ld_unit_zero (S := S8x128x4) hz,
    View.ld_unit_zero (S := S8x1x1) hz, View.ld_unit_zero (S := S8x512) hz2]

end Cert.KernelIdeal.Pieces

end
-- ==== Proof.LibTiledSup.lean ====
/-
  Finite suprema on the extended reals, taken tile by tile.

  The extended reals are a complete linear order with a least element, and 0 * x = 0, x * 0 = 0, 1 * x = x,
  x * 1 = x hold for every extended real, so none of the statements below needs a finiteness hypothesis.
  A condition enters as a 0/1 factor (if-then-else on an arbitrary proposition, decided classically).
-/
import Mathlib.Data.EReal.Basic
import Mathlib.Data.EReal.Operations
import Mathlib.Order.Fin.Basic
import Mathlib.Data.Finset.Lattice.Fold
import Mathlib.Data.Fintype.Basic

open Classical

namespace Cert.LibTiledSup

/-- Folding max over a finite set, starting from the least element, gives the finite supremum. -/
theorem fold_max_eq_sup {ι : Type*} (s : Finset ι) (f : ι → EReal) : s.fold max ⊥ f = s.sup f := by
  induction s using Finset.induction_on with
  | empty => simp
  | insert a s ha ih => rw [Finset.fold_insert ha, Finset.sup_insert, ih]

/-- A running maximum: if acc 0 = max z (f 0) and acc (n + 1) = max (acc n) (f (n + 1)), then acc n is the maximum
of z and the supremum of f 0, …, f n. -/
theorem running_max (f acc : ℕ → EReal) (z : EReal) (h0 : acc 0 = max z (f 0))
    (hs : ∀ n, acc (n + 1) = max (acc n) (f (n + 1))) (n : ℕ) :
    acc n = max z ((Finset.range (n + 1)).sup f) := by
  induction n with
  | zero => simpa using h0
  | succ n ih =>
    rw [hs, ih, Finset.range_add_one (n := n + 1), Finset.sup_insert, max_assoc, max_comm (f (n + 1))]

/-- The supremum over n < N of a function that is g n below N (and the least element elsewhere) is the supremum
of g over all of Fin N. -/
theorem sup_range_dite {N : ℕ} (g : Fin N → EReal) :
    (Finset.range N).sup (fun n => if h : n < N then g ⟨n, h⟩ else ⊥) = Finset.univ.sup g := by
  apply le_antisymm
  · refine Finset.sup_le fun n hn => ?_
    have h : n < N := Finset.mem_range.1 hn
    rw [dif_pos h]
    exact Finset.le_sup (f := g) (Finset.mem_univ _)
  · refine Finset.sup_le fun i _ => ?_
    have h := Finset.le_sup (f := fun n => if h : n < N then g ⟨n, h⟩ else ⊥) (Finset.mem_range.2 i.2)
    simpa [dif_pos i.2] using h

/-- A supremum taken tile by tile, the conditions applied as 0/1 factors first along the columns and then along
the rows, is the supremum over the whole index set of the values kept where both conditions hold and replaced
by 0 elsewhere. Every (row, column) pair lies in some tile, which gives ≥; each tile entry is one of the
values on the right, which gives ≤. Where the row condition fails, the left inner term is (sup …) * 0 = 0, and
0 is also a value on the right because a tile has at least one column. -/
theorem tiled_masked_sup {T Rl Cl R C : Type*} [Fintype T] [Fintype Rl] [Fintype Cl] [Fintype R] [Fintype C]
    [Nonempty Cl]
    (row : T → Rl → R) (col : T → Cl → C) (hsurj : ∀ i j, ∃ t r c, row t r = i ∧ col t c = j)
    (a : R → C → EReal) (P : R → Prop) (V : C → Prop) :
    (Finset.univ.sup fun t : T => Finset.univ.sup fun r : Rl =>
        (Finset.univ.sup fun c : Cl => a (row t r) (col t c) * (if V (col t c) then (1 : EReal) else 0))
          * (if P (row t r) then (1 : EReal) else 0))
      = Finset.univ.sup fun i : R => Finset.univ.sup fun j : C => if P i ∧ V j then a i j else 0 := by
  -- every value on the right is below the right-hand side
  have hR : ∀ i j, (if P i ∧ V j then a i j else 0)
      ≤ Finset.univ.sup fun i : R => Finset.univ.sup fun j : C => if P i ∧ V j then a i j else 0 :=
    fun i j => (Finset.le_sup (f := fun j : C => if P i ∧ V j then a i j else 0) (Finset.mem_univ j)).trans
      (Finset.le_sup (f := fun i : R => Finset.univ.sup fun j : C => if P i ∧ V j then a i j else 0)
        (Finset.mem_univ i))
  -- every tile row term is below the left-hand side
  have hL : ∀ t r, (Finset.univ.sup fun c : Cl => a (row t r) (col t c) * (if V (col t c) then (1 : EReal) else 0))
        * (if P (row t r) then (1 : EReal) else 0)
      ≤ Finset.univ.sup fun t : T => Finset.univ.sup fun r : Rl =>
        (Finset.univ.sup fun c : Cl => a (row t r) (col t c) * (if V (col t c) then (1 : EReal) else 0))
          * (if P (row t r) then (1 : EReal) else 0) :=
    fun t r => (Finset.le_sup (f := fun r : Rl =>
        (Finset.univ.sup fun c : Cl => a (row t r) (col t c) * (if V (col t c) then (1 : EReal) else 0))
          * (if P (row t r) then (1 : EReal) else 0)) (Finset.mem_univ r)).trans
      (Finset.le_sup (f := fun t : T => Finset.univ.sup fun r : Rl =>
        (Finset.univ.sup fun c : Cl => a (row t r) (col t c) * (if V (col t c) then (1 : EReal) else 0))
          * (if P (row t r) then (1 : EReal) else 0)) (Finset.mem_univ t))
  apply le_antisymm
  · refine Finset.sup_le fun t _ => Finset.sup_le fun r _ => ?_
    by_cases hp : P (row t r)
    · rw [if_pos hp, mul_one]
      refine Finset.sup_le fun c _ => ?_
      by_cases hv : V (col t c)
      · rw [if_pos hv, mul_one]
        simpa [hp, hv] using hR (row t r) (col t c)
      · rw [if_neg hv, mul_zero]
        simpa [hv] using hR (row t r) (col t c)
    · rw [if_neg hp, mul_zero]
      obtain ⟨c⟩ := ‹Nonempty Cl›
      simpa [hp] using hR (row t r) (col t c)
  · refine Finset.sup_le fun i _ => Finset.sup_le fun j _ => ?_
    obtain ⟨t, r, c, rfl, rfl⟩ := hsurj i j
    refine le_trans ?_ (hL t r)
    by_cases hp : P (row t r)
    · rw [if_pos hp, mul_one]
      refine le_trans ?_ (Finset.le_sup (f := fun c : Cl =>
        a (row t r) (col t c) * (if V (col t c) then (1 : EReal) else 0)) (Finset.mem_univ c))
      by_cases hv : V (col t c)
      · simp [hp, hv]
      · simp [hv]
    · simp [hp]

/-- The "some row satisfies the condition" flag, accumulated tile by tile as a maximum of 0/1 values starting
from 0, is positive exactly when some row of the whole index set satisfies the condition. -/
theorem tiled_any_pos {T Rl R : Type*} [Fintype T] [Fintype Rl] [Fintype R]
    (row : T → Rl → R) (hsurj : ∀ i, ∃ t r, row t r = i) (P : R → Prop) :
    (0 : EReal) < max 0 (Finset.univ.sup fun t : T => Finset.univ.sup fun r : Rl =>
        if P (row t r) then (1 : EReal) else 0) ↔ ∃ i, P i := by
  constructor
  · intro h
    rcases lt_max_iff.1 h with h | h
    · exact absurd h (lt_irrefl _)
    · obtain ⟨t, -, ht⟩ := Finset.lt_sup_iff.1 h
      obtain ⟨r, -, hr⟩ := Finset.lt_sup_iff.1 ht
      by_cases hp : P (row t r)
      · exact ⟨_, hp⟩
      · simp [hp] at hr
  · rintro ⟨i, hi⟩
    obtain ⟨t, r, rfl⟩ := hsurj i
    refine lt_max_iff.2 (Or.inr ?_)
    refine Finset.lt_sup_iff.2 ⟨t, Finset.mem_univ _, Finset.lt_sup_iff.2 ⟨r, Finset.mem_univ _, ?_⟩⟩
    simp [hi]

/-- Every pair (i, j) with i < 4096 and j < 2048 lies in a tile: with t = 16 * (i / 512) + j / 128,
r = i % 512 and c = j % 128 one has 512 * (t / 16) + r = i and 128 * (t % 16) + c = j. -/
theorem tile_surj : ∀ (i : Fin 4096) (j : Fin 2048), ∃ (t : Fin 128) (r : Fin 512) (c : Fin 128),
    (⟨512 * (t.val / 16) + r.val, by omega⟩ : Fin 4096) = i
      ∧ (⟨128 * (t.val % 16) + c.val, by omega⟩ : Fin 2048) = j := by
  intro i j
  refine ⟨⟨16 * (i.val / 512) + j.val / 128, by omega⟩, ⟨i.val % 512, by omega⟩, ⟨j.val % 128, by omega⟩,
    ?_, ?_⟩
  · apply Fin.ext
    simp only
    omega
  · apply Fin.ext
    simp only
    omega

end Cert.LibTiledSup
-- ==== Proof.PayloadMax.lean ====
/-
  One grid point's update of the running maximum, read at an index on the extended reals.

  A grid point holds a block of 512 predicted boxes, their class words, and a block of 128 ground-truth boxes, for
  each of 8 batches. From these the body forms, for every pair (r, c) of a predicted and a ground-truth box, the
  intersection over union: the overlap along each axis clamped at 0, their product the intersection, the two areas,
  the union bounded below by a fixed positive literal, and the quotient. It multiplies the quotient by the 0/1 factor
  "the four coordinates of ground-truth box c do not sum to 0", takes the maximum over c, multiplies by the 0/1 factor
  "the class word of predicted box r is 0", takes the maximum over r, and finally the maximum with the value the
  accumulator already holds. Both maxima start from -∞, the least extended real, so each is the supremum over the
  reduced axis.

  The file reads that chain one layer at a time, every layer at an index given by its coordinates:
    * the layout steps — a column of a block of boxes, a per-row or per-column value spread over the [8, 512, 128]
      pairs, a unit axis appended — each read the operand at the evident index (`colRead`, `rowSpread`, `colSpread`,
      `addUnit_read`, `addUnit2_read`, and the eight columns `pay6_apply` … `pay13_apply`);
    * the two 0/1 factors (`pay18_apply`, `validMask_apply`): a one-bit condition widened to a word and converted to
      a float is 1 when the bit is set and 0 otherwise (`sitofp_bit`);
    * the intersection, the two areas and the masked quotient (`inter_apply`, `areaP_apply`, `areaG_apply`,
      `maskedQuotient_apply`), which come out in the same order of min, max, difference, product and quotient as the
      shared definitions `interOf`, `areaOf`, `iouOf`;
    * the two maxima as suprema (`laneMax_read`, `rowMax_read`) and their composition (`tileMax_read`);
    * the whole update (`pay20_apply`): the larger of the accumulator's value and `blockMax`.
-/
import proofs.«164905_j52501680227023_2_alg».proof.Proof.Spec
import proofs.«164905_j52501680227023_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Classical

namespace Cert.KernelIdeal.PayloadMax

open Idealize.ShloMosaic Idealize.ShloMosaic.ValueIdx Cert.KernelIdeal Cert.KernelIdeal.Gen Cert.PersonIou

variable {α : Type}

/-! ## Layout steps at an index -/

/-- Column o of a block of n boxes: cutting the last axis down to the one coordinate o and dropping the unit axis
    that is left reads, at (b, r), the entry (b, r, o). -/
theorem colRead {n : Nat} (o : Nat) (X : (⟨3, ![8, n, 4]⟩ : Shape).Idx → α)
    (hs : (⟨3, ![8, n, 4]⟩ : Shape).Slices ![0, 0, o] ⟨3, ![8, n, 1]⟩)
    (hc : (⟨3, ![8, n, 1]⟩ : Shape).ShapeCasts ⟨2, ![8, n]⟩) (b : Fin 8) (r : Fin n) (k : Fin 4) (hk : k.val = o) :
    shapeCast ⟨2, ![8, n]⟩ (extractStridedSlice ⟨3, ![8, n, 1]⟩ ![0, 0, o] X hs) hc (ix2 b r) = X (ix3 b r k) := by
  refine (shapeCast_apply _ hc (ix2 b r) (ix3 b r (0 : Fin 1)) ?_).trans ?_
  · rw [Shape.rowMajor_val_three, Shape.rowMajor_val_two]
    show (b.val * n + r.val) * 1 + 0 = b.val * n + r.val
    rw [Nat.mul_one, Nat.add_zero]
  · refine extractStridedSlice_apply _ X hs _ (ix3 b r k) fun ax => ?_
    match ax with
    | ⟨0, _⟩ => exact (Nat.zero_add _).symm
    | ⟨1, _⟩ => exact (Nat.zero_add _).symm
    | ⟨2, _⟩ => show k.val = o + 0; omega

/-- A value per (batch, row), given a trailing unit axis and repeated along the 128 columns, reads at (b, r, c) the
    value at (b, r). -/
theorem rowSpread (v : S8x512.Idx → α) (hc : S8x512.ShapeCasts S8x512x1) (hb : S8x512x1.Broadcasts S8x512x128)
    (b : Fin 8) (r : Fin 512) (c : Fin 128) :
    broadcastTo S8x512x128 (shapeCast S8x512x1 v hc) hb (ix3 b r c) = v (ix2 b r) := by
  refine (broadcastTo_apply _ hb (ix3 b r c) (ix3 b r (0 : Fin 1)) fun ax => ?_).trans ?_
  · match ax with
    | ⟨0, _⟩ => rfl
    | ⟨1, _⟩ => rfl
    | ⟨2, _⟩ => rfl
  · refine shapeCast_apply v hc _ (ix2 b r) ?_
    rw [Shape.rowMajor_val_three, Shape.rowMajor_val_two]
    show b.val * 512 + r.val = (b.val * 512 + r.val) * 1 + 0
    omega

/-- A value per (batch, column), given a middle unit axis and repeated along the 512 rows, reads at (b, r, c) the
    value at (b, c). -/
theorem colSpread (w : S8x128.Idx → α) (hc : S8x128.ShapeCasts S8x1x128) (hb : S8x1x128.Broadcasts S8x512x128)
    (b : Fin 8) (r : Fin 512) (c : Fin 128) :
    broadcastTo S8x512x128 (shapeCast S8x1x128 w hc) hb (ix3 b r c) = w (ix2 b c) := by
  refine (broadcastTo_apply _ hb (ix3 b r c) (ix3 b (0 : Fin 1) c) fun ax => ?_).trans ?_
  · match ax with
    | ⟨0, _⟩ => rfl
    | ⟨1, _⟩ => rfl
    | ⟨2, _⟩ => rfl
  · refine shapeCast_apply w hc _ (ix2 b c) ?_
    rw [Shape.rowMajor_val_three, Shape.rowMajor_val_two]
    show b.val * 128 + c.val = (b.val * 1 + 0) * 128 + c.val
    omega

/-- A value per (batch, row) given a trailing unit axis reads at (b, r, 0) the value at (b, r). -/
theorem addUnit_read (v : S8x512.Idx → α) (hc : S8x512.ShapeCasts S8x512x1) (b : Fin 8) (r : Fin 512) :
    shapeCast S8x512x1 v hc (ix3 b r (0 : Fin 1)) = v (ix2 b r) := by
  refine shapeCast_apply v hc _ (ix2 b r) ?_
  rw [Shape.rowMajor_val_three, Shape.rowMajor_val_two]
  show b.val * 512 + r.val = (b.val * 512 + r.val) * 1 + 0
  omega

/-- A value per batch held as [8, 1], given a second unit axis, reads at (b, 0, 0) the value at (b, 0). -/
theorem addUnit2_read (v : S8x1.Idx → α) (hc : S8x1.ShapeCasts S8x1x1) (b : Fin 8) :
    shapeCast S8x1x1 v hc (ix3 b (0 : Fin 1) (0 : Fin 1)) = v (ix2 b (0 : Fin 1)) := by
  refine shapeCast_apply v hc _ (ix2 b (0 : Fin 1)) ?_
  rw [Shape.rowMajor_val_three, Shape.rowMajor_val_two]
  show b.val * 1 + 0 = (b.val * 1 + 0) * 1 + 0
  omega

/-! ## The eight corner coordinates

Columns 0, 1, 2, 3 of a block of boxes are the corner coordinates x1, y1, x2, y2. -/

theorem pay6_apply (x0 : Vec Ideal S8x512x4 .f32) (b : Fin 8) (r : Fin 512) :
    k0_pay6 (F := Ideal) x0 (ix2 b r) = x0 (ix3 b r (0 : Fin 4)) := colRead 0 x0 _ _ b r 0 rfl
theorem pay7_apply (x0 : Vec Ideal S8x512x4 .f32) (b : Fin 8) (r : Fin 512) :
    k0_pay7 (F := Ideal) x0 (ix2 b r) = x0 (ix3 b r (1 : Fin 4)) := colRead 1 x0 _ _ b r 1 rfl
theorem pay8_apply (x0 : Vec Ideal S8x512x4 .f32) (b : Fin 8) (r : Fin 512) :
    k0_pay8 (F := Ideal) x0 (ix2 b r) = x0 (ix3 b r (2 : Fin 4)) := colRead 2 x0 _ _ b r 2 rfl
theorem pay9_apply (x0 : Vec Ideal S8x512x4 .f32) (b : Fin 8) (r : Fin 512) :
    k0_pay9 (F := Ideal) x0 (ix2 b r) = x0 (ix3 b r (3 : Fin 4)) := colRead 3 x0 _ _ b r 3 rfl
theorem pay10_apply (x2 : Vec Ideal S8x128x4 .f32) (b : Fin 8) (c : Fin 128) :
    k0_pay10 (F := Ideal) x2 (ix2 b c) = x2 (ix3 b c (0 : Fin 4)) := colRead 0 x2 _ _ b c 0 rfl
theorem pay11_apply (x2 : Vec Ideal S8x128x4 .f32) (b : Fin 8) (c : Fin 128) :
    k0_pay11 (F := Ideal) x2 (ix2 b c) = x2 (ix3 b c (1 : Fin 4)) := colRead 1 x2 _ _ b c 1 rfl
theorem pay12_apply (x2 : Vec Ideal S8x128x4 .f32) (b : Fin 8) (c : Fin 128) :
    k0_pay12 (F := Ideal) x2 (ix2 b c) = x2 (ix3 b c (2 : Fin 4)) := colRead 2 x2 _ _ b c 2 rfl
theorem pay13_apply (x2 : Vec Ideal S8x128x4 .f32) (b : Fin 8) (c : Fin 128) :
    k0_pay13 (F := Ideal) x2 (ix2 b c) = x2 (ix3 b c (3 : Fin 4)) := colRead 3 x2 _ _ b c 3 rfl

/-! ## The two 0/1 factors -/

/-- A one-bit word widened with zeros to 32 bits and read as a signed integer is 1 when the bit is set and 0
    otherwise: as an extended real, the 0/1 factor of "the bit is set". -/
theorem sitofp_bit (w : BitVec 1) :
    FloatOps.sitofp (F := Ideal) .f32 (w.setWidth 32) = if w = 1#1 then (1 : EReal) else 0 := by
  rcases BitVec.eq_zero_or_eq_one w with h | h
  · subst h
    show (((BitVec.setWidth 32 0#1).toInt : ℝ) : EReal) = _
    have : (BitVec.setWidth 32 0#1).toInt = 0 := by decide
    rw [this, if_neg (by decide)]; simp
  · subst h
    show (((BitVec.setWidth 32 1#1).toInt : ℝ) : EReal) = _
    have : (BitVec.setWidth 32 1#1).toInt = 1 := by decide
    rw [this, if_pos rfl]; simp

/-- The equality test of two words answers the set bit exactly when they are equal. -/
theorem cmpi_eq_one_iff (x y : BitVec 32) : IntOp.cmpi .eq x y = 1#1 ↔ x = y := by
  show BitVec.ofBool (x == y) = 1#1 ↔ x = y
  cases hb : (x == y)
  · exact ⟨fun h => absurd h (by decide), fun h => by rw [h, beq_self_eq_true] at hb; exact absurd hb (by decide)⟩
  · exact ⟨fun _ => eq_of_beq hb, fun _ => rfl⟩

/-- The bit of a decided proposition is set exactly when the proposition holds. -/
theorem ofBool_decide_eq_one_iff (P : Prop) [Decidable P] : BitVec.ofBool (decide P) = 1#1 ↔ P := by
  by_cases h : P
  · simp [h]
  · simp [h]

/-- The row factor: 1 when the class word of predicted box r is 0, and 0 otherwise. -/
theorem pay18_apply (x1 : Vec Ideal S8x512 .i32) (b : Fin 8) (r : Fin 512) :
    k0_pay18 (F := Ideal) x1 (ix2 b r) = maskE (isPerson x1 b r) := by
  show FloatOps.sitofp (F := Ideal) .f32 ((IntOp.cmpi .eq (x1 (ix2 b r)) 0#32).setWidth 32) = _
  rw [sitofp_bit]
  exact if_congr (cmpi_eq_one_iff _ _) rfl rfl

/-- The sum along the last axis of a block of boxes is, at (b, c), the sum of the four coordinates of box c: the
    index over (b, c) with coordinate k inserted on the last axis is (b, c, k). -/
theorem rowSum_read (x2 : Vec Ideal S8x128x4 .f32) (b : Fin 8) (c : Fin 128) :
    multiReduction (F := Ideal) .add [2] S8x128 x2 0x00000000#32 reduces_S8x128x4_S8x128 (.inl rfl) rfl (ix2 b c)
      = rowSum x2 b c := by
  refine (Ideal.multiReduction_add_single x2 _ reduces_S8x128x4_S8x128 (.inl rfl) rfl (ix2 b c)).trans ?_
  unfold rowSum
  refine Finset.sum_congr rfl fun k _ => congrArg x2 ?_
  funext ax
  match ax with
  | ⟨0, _⟩ => rfl
  | ⟨1, _⟩ => rfl
  | ⟨2, _⟩ => rfl

/-- The column factor: 1 when the four coordinates of ground-truth box c do not sum to 0, and 0 otherwise. The
    comparison "differs from" of two extended reals sets its bit exactly when they differ, and the word it compares
    the sum with denotes 0. -/
theorem validMask_apply (x2 : Vec Ideal S8x128x4 .f32) (b : Fin 8) (c : Fin 128) :
    sitofp (F := Ideal) .f32 (extui 32 (cmpf .one
        (multiReduction (F := Ideal) .add [2] S8x128 x2 0x00000000#32 reduces_S8x128x4_S8x128 (.inl rfl) rfl)
        (broadcast S8x128 (Scalar.ofBits (F := Ideal) .f32 0x00000000#32))) natLt_1_32) (ix2 b c)
      = maskE (isValid x2 b c) := by
  show FloatOps.sitofp (F := Ideal) .f32 ((Ideal.cmp .one
      (multiReduction (F := Ideal) .add [2] S8x128 x2 0x00000000#32 reduces_S8x128x4_S8x128 (.inl rfl) rfl (ix2 b c))
      (Ideal.ofBits .f32 0x00000000#32)).setWidth 32) = _
  rw [sitofp_bit, rowSum_read, Ideal.ofBits_zero_f32]
  exact if_congr (ofBool_decide_eq_one_iff _) rfl rfl

/-! ## Intersection, areas, and the masked quotient -/

/-- The overlap along x of predicted box r and ground-truth box c, clamped at 0: the smaller right edge less the
    larger left edge. -/
theorem pay14_apply (x0 : Vec Ideal S8x512x4 .f32) (x2 : Vec Ideal S8x128x4 .f32) (b : Fin 8) (r : Fin 512) (c : Fin 128) :
    k0_pay14 (F := Ideal) x0 x2 (ix3 b r c)
      = max (min (x0 (ix3 b r (2 : Fin 4))) (x2 (ix3 b c (2 : Fin 4)))
          - max (x0 (ix3 b r (0 : Fin 4))) (x2 (ix3 b c (0 : Fin 4)))) zeroLit := by
  show max (min (broadcastTo S8x512x128 (shapeCast S8x512x1 (k0_pay8 (F := Ideal) x0) _) _ (ix3 b r c))
        (broadcastTo S8x512x128 (shapeCast S8x1x128 (k0_pay12 (F := Ideal) x2) _) _ (ix3 b r c))
      - max (broadcastTo S8x512x128 (shapeCast S8x512x1 (k0_pay6 (F := Ideal) x0) _) _ (ix3 b r c))
        (broadcastTo S8x512x128 (shapeCast S8x1x128 (k0_pay10 (F := Ideal) x2) _) _ (ix3 b r c)))
      (Ideal.ofBits .f32 0x00000000#32) = _
  rw [rowSpread, rowSpread, colSpread, colSpread, pay8_apply, pay12_apply, pay6_apply, pay10_apply]

/-- The smaller of the two bottom edges. -/
theorem pay15_apply (x0 : Vec Ideal S8x512x4 .f32) (x2 : Vec Ideal S8x128x4 .f32) (b : Fin 8) (r : Fin 512) (c : Fin 128) :
    k0_pay15 (F := Ideal) x0 x2 (ix3 b r c) = min (x0 (ix3 b r (3 : Fin 4))) (x2 (ix3 b c (3 : Fin 4))) := by
  show min (broadcastTo S8x512x128 (shapeCast S8x512x1 (k0_pay9 (F := Ideal) x0) _) _ (ix3 b r c))
      (broadcastTo S8x512x128 (shapeCast S8x1x128 (k0_pay13 (F := Ideal) x2) _) _ (ix3 b r c)) = _
  rw [rowSpread, colSpread, pay9_apply, pay13_apply]

/-- The ground-truth top edge, repeated along the rows. -/
theorem pay16_spread (x2 : Vec Ideal S8x128x4 .f32) (hb : S8x1x128.Broadcasts S8x512x128) (b : Fin 8) (r : Fin 512)
    (c : Fin 128) :
    broadcastTo S8x512x128 (k0_pay16 (F := Ideal) x2) hb (ix3 b r c) = x2 (ix3 b c (1 : Fin 4)) :=
  (colSpread _ _ hb b r c).trans (pay11_apply x2 b c)

/-- The predicted top edge, repeated along the columns. -/
theorem pay17_apply (x0 : Vec Ideal S8x512x4 .f32) (b : Fin 8) (r : Fin 512) (c : Fin 128) :
    k0_pay17 (F := Ideal) x0 (ix3 b r c) = x0 (ix3 b r (1 : Fin 4)) :=
  (rowSpread _ shapeCasts_S8x512_S8x512x1 broadcasts_S8x512x1_S8x512x128 b r c).trans (pay7_apply x0 b r)

/-- The intersection area: the clamped overlap along x times the clamped overlap along y. -/
theorem inter_apply (x0 : Vec Ideal S8x512x4 .f32) (x2 : Vec Ideal S8x128x4 .f32) (hb : S8x1x128.Broadcasts S8x512x128)
    (b : Fin 8) (r : Fin 512) (c : Fin 128) :
    mulf (k0_pay14 (F := Ideal) x0 x2)
        (maximumf (subf (k0_pay15 (F := Ideal) x0 x2) (maximumf (k0_pay17 (F := Ideal) x0)
            (broadcastTo S8x512x128 (k0_pay16 (F := Ideal) x2) hb)))
          (broadcast S8x512x128 (Scalar.ofBits (F := Ideal) .f32 0x00000000#32))) (ix3 b r c)
      = interOf x0 x2 b r c := by
  show k0_pay14 (F := Ideal) x0 x2 (ix3 b r c)
      * max (k0_pay15 (F := Ideal) x0 x2 (ix3 b r c)
          - max (k0_pay17 (F := Ideal) x0 (ix3 b r c)) (broadcastTo S8x512x128 (k0_pay16 (F := Ideal) x2) hb (ix3 b r c)))
        (Ideal.ofBits .f32 0x00000000#32) = _
  rw [pay14_apply, pay15_apply, pay17_apply, pay16_spread]
  rfl

/-- The area of predicted box r: width times height. -/
theorem areaP_apply (x0 : Vec Ideal S8x512x4 .f32) (b : Fin 8) (r : Fin 512) :
    mulf (subf (k0_pay8 (F := Ideal) x0) (k0_pay6 (F := Ideal) x0)) (subf (k0_pay9 (F := Ideal) x0) (k0_pay7 (F := Ideal) x0))
        (ix2 b r)
      = areaOf x0 b r := by
  show (k0_pay8 (F := Ideal) x0 (ix2 b r) - k0_pay6 (F := Ideal) x0 (ix2 b r))
      * (k0_pay9 (F := Ideal) x0 (ix2 b r) - k0_pay7 (F := Ideal) x0 (ix2 b r)) = _
  rw [pay8_apply, pay6_apply, pay9_apply, pay7_apply]
  rfl

/-- The area of ground-truth box c: width times height. -/
theorem areaG_apply (x2 : Vec Ideal S8x128x4 .f32) (b : Fin 8) (c : Fin 128) :
    mulf (subf (k0_pay12 (F := Ideal) x2) (k0_pay10 (F := Ideal) x2))
        (subf (k0_pay13 (F := Ideal) x2) (k0_pay11 (F := Ideal) x2)) (ix2 b c)
      = areaOf x2 b c := by
  show (k0_pay12 (F := Ideal) x2 (ix2 b c) - k0_pay10 (F := Ideal) x2 (ix2 b c))
      * (k0_pay13 (F := Ideal) x2 (ix2 b c) - k0_pay11 (F := Ideal) x2 (ix2 b c)) = _
  rw [pay12_apply, pay10_apply, pay13_apply, pay11_apply]
  rfl

/-- The quotient and its column factor, for any intersection I over the pairs, areas AP per row and AG per column, and
    factor M per column: at (b, r, c) it is I divided by the larger of AP + AG - I and the lower bound of the union,
    times M. Every operation is pointwise, and the per-row and per-column operands are repeated over the pairs. -/
theorem maskedQuotient_apply (I : FVec Ideal S8x512x128 .f32) (AP : FVec Ideal S8x512 .f32) (AG M : FVec Ideal S8x128 .f32)
    (hc1 : S8x512.ShapeCasts S8x512x1) (hb1 : S8x512x1.Broadcasts S8x512x128)
    (hc2 : S8x128.ShapeCasts S8x1x128) (hb2 : S8x1x128.Broadcasts S8x512x128) (b : Fin 8) (r : Fin 512) (c : Fin 128) :
    mulf (divf I (maximumf (subf (addf (broadcastTo S8x512x128 (shapeCast S8x512x1 AP hc1) hb1)
            (broadcastTo S8x512x128 (shapeCast S8x1x128 AG hc2) hb2)) I)
          (broadcast S8x512x128 (Scalar.ofBits (F := Ideal) .f32 0x3089705F#32))))
        (broadcastTo S8x512x128 (shapeCast S8x1x128 M hc2) hb2) (ix3 b r c)
      = Ideal.div (I (ix3 b r c)) (max (AP (ix2 b r) + AG (ix2 b c) - I (ix3 b r c)) epsLit) * M (ix2 b c) := by
  refine (mulf_apply _ _ _).trans (congrArg₂ (· * ·) ?_ (colSpread M hc2 hb2 b r c))
  refine (divf_apply _ _ _).trans (congrArg (Ideal.div (I (ix3 b r c))) ?_)
  refine (maximumf_apply _ _ _).trans (congrArg₂ max ?_ rfl)
  refine (subf_apply _ _ _).trans (congrArg (· - I (ix3 b r c)) ?_)
  exact (addf_apply _ _ _).trans (congrArg₂ (· + ·) (rowSpread AP hc1 hb1 b r c) (colSpread AG hc2 hb2 b r c))

/-! ## The two maxima -/

/-- The word with the sign bit set, the exponent all ones and the fraction 0 denotes -∞, the least extended real. -/
theorem ofBits_negInf : Ideal.ofBits .f32 0xFF800000#32 = (⊥ : EReal) := by simp [Ideal.ofBits, Ideal.ieee]

/-- The maximum along the last axis of the pairs, started from -∞, is at (b, r) the supremum over the 128 columns c of
    the entry (b, r, c): a fold of max from the least element is the supremum, and the index over (b, r) with c
    inserted on the last axis is (b, r, c). -/
theorem laneMax_read (V : FVec Ideal S8x512x128 .f32) (b : Fin 8) (r : Fin 512) :
    multiReduction (F := Ideal) .maximumf [2] S8x512 V 0xFF800000#32 reduces_S8x512x128_S8x512 (.inl rfl) rfl (ix2 b r)
      = Finset.univ.sup fun c : Fin 128 => V (ix3 b r c) := by
  refine (Ideal.multiReduction_maximumf_single V 0xFF800000#32 reduces_S8x512x128_S8x512 (.inl rfl) rfl (ix2 b r)).trans ?_
  have h0 : FloatOps.ofBits (F := Ideal) .f32 0xFF800000#32 = (⊥ : EReal) := ofBits_negInf
  have hf : (V ∘ reduces_S8x512x128_S8x512.lift (ix2 b r)) = fun c : Fin 128 => V (ix3 b r c) :=
    funext fun c => congrArg V (funext fun ax => match ax with
      | ⟨0, _⟩ => rfl
      | ⟨1, _⟩ => rfl
      | ⟨2, _⟩ => rfl)
  rw [h0, hf]
  rfl

/-- The maximum along the middle axis of an [8, 512, 1] vector, started from -∞, is at (b, 0) the supremum over the
    512 rows r of the entry (b, r, 0). -/
theorem rowMax_read (W : FVec Ideal S8x512x1 .f32) (b : Fin 8) :
    multiReduction (F := Ideal) .maximumf [1] S8x1 W 0xFF800000#32 reduces_S8x512x1_S8x1 (.inl rfl) rfl (ix2 b (0 : Fin 1))
      = Finset.univ.sup fun r : Fin 512 => W (ix3 b r (0 : Fin 1)) := by
  refine (Ideal.multiReduction_maximumf_single W 0xFF800000#32 reduces_S8x512x1_S8x1 (.inl rfl) rfl (ix2 b (0 : Fin 1))).trans ?_
  have h0 : FloatOps.ofBits (F := Ideal) .f32 0xFF800000#32 = (⊥ : EReal) := ofBits_negInf
  have hf : (W ∘ reduces_S8x512x1_S8x1.lift (ix2 b (0 : Fin 1))) = fun r : Fin 512 => W (ix3 b r (0 : Fin 1)) :=
    funext fun r => congrArg W (funext fun ax => match ax with
      | ⟨0, _⟩ => rfl
      | ⟨1, _⟩ => rfl
      | ⟨2, _⟩ => rfl)
  rw [h0, hf]
  rfl

/-- The block's maximum for batch b, for any values V over the pairs and any row factor P: the supremum over the
    columns, times the row factor, then the supremum over the rows. The product is read pointwise before its factors
    are opened, so that neither maximum is unfolded. -/
theorem tileMax_read (V : FVec Ideal S8x512x128 .f32) (P : FVec Ideal S8x512 .f32) (b : Fin 8) :
    shapeCast S8x1x1 (multiReduction (F := Ideal) .maximumf [1] S8x1
        (mulf (shapeCast S8x512x1 (multiReduction (F := Ideal) .maximumf [2] S8x512 V 0xFF800000#32
            reduces_S8x512x128_S8x512 (.inl rfl) rfl) shapeCasts_S8x512_S8x512x1)
          (shapeCast S8x512x1 P shapeCasts_S8x512_S8x512x1))
        0xFF800000#32 reduces_S8x512x1_S8x1 (.inl rfl) rfl) shapeCasts_S8x1_S8x1x1 (ix3 b (0 : Fin 1) (0 : Fin 1))
      = Finset.univ.sup fun r : Fin 512 => (Finset.univ.sup fun c : Fin 128 => V (ix3 b r c)) * P (ix2 b r) :=
  (addUnit2_read _ _ b).trans ((rowMax_read _ b).trans (Finset.sup_congr rfl fun r _ =>
    (mulf_apply _ _ _).trans
      (congrArg₂ (· * ·) ((addUnit_read _ _ b r).trans (laneMax_read V b r)) (addUnit_read P _ b r))))

/-! ## The update of the running maximum -/

/-- What the grid point leaves in the accumulator for batch b: the larger of what the accumulator held and the
    block's maximum, the largest masked intersection over union among the block's pairs. -/
theorem pay20_apply (x0 : Vec Ideal S8x512x4 .f32) (x1 : Vec Ideal S8x512 .i32) (x2 : Vec Ideal S8x128x4 .f32)
    (v87 : Vec Ideal S8x1x1 .f32) (b : Fin 8) :
    k0_pay20 (F := Ideal) x1 x2 (k0_pay6 x0) (k0_pay7 x0) (k0_pay8 x0) (k0_pay9 x0) (k0_pay10 x2) (k0_pay11 x2)
        (k0_pay12 x2) (k0_pay13 x2) (k0_pay14 x0 x2) (k0_pay15 x0 x2) (k0_pay16 x2) (k0_pay17 x0) v87
        (ix3 b (0 : Fin 1) (0 : Fin 1))
      = max (v87 (ix3 b (0 : Fin 1) (0 : Fin 1))) (blockMax x0 x1 x2 b) := by
  unfold k0_pay20
  refine (maximumf_apply _ _ _).trans (congrArg (max (v87 _)) ((tileMax_read _ _ b).trans ?_))
  unfold blockMax
  refine Finset.sup_congr rfl fun r _ =>
    congrArg₂ (· * ·) (Finset.sup_congr rfl fun c _ => ?_) (pay18_apply x1 b r)
  refine (maskedQuotient_apply _ _ _ _ _ _ _ _ b r c).trans ?_
  unfold iouOf
  exact congrArg₂ (· * ·)
    (congrArg₂ Ideal.div (inter_apply x0 x2 _ b r c)
      (congrArg₂ max
        (congrArg₂ (· - ·) (congrArg₂ (· + ·) (areaP_apply x0 b r) (areaG_apply x2 b c)) (inter_apply x0 x2 _ b r c))
        rfl))
    (validMask_apply x2 b c)

end Cert.KernelIdeal.PayloadMax

end
-- ==== Proof.PayloadSmall.lean ====
/-
  The small payloads of the kernel body, read at an index on the extended reals.

  The two running accumulators of a batch are an [8,1,1] vector each. Re-storing one of them passes through a shape
  cast to its own shape, which changes nothing (`pay1_eq`); the flag accumulator is updated by a pointwise maximum
  (`pay2_apply`); the first grid point initialises the maximum to -∞ and the flag to 0 (`pay4_apply`,
  `pay5_apply`); the last grid point writes the maximum where the flag is positive and 0 elsewhere (`pay3_apply`).
  The flag a grid point contributes for batch b is the largest, over the 512 predicted rows of its block, of the
  0/1 value "the row's class word is 0" (`pay18_apply` for one row, `pay19_apply` for the maximum): a maximum over
  one axis started from -∞ is the supremum over that axis's coordinates, since -∞ is the least extended real.
-/
import proofs.«164905_j52501680227023_2_alg».proof.Proof.Spec
import proofs.«164905_j52501680227023_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Classical

namespace Cert.KernelIdeal.PayloadSmall

open Idealize.ShloMosaic Idealize.ShloMosaic.ValueIdx Cert.KernelIdeal Cert.KernelIdeal.Gen

/-- A shape cast of an [8,1,1] vector to [8,1,1] is the vector itself. -/
theorem pay1_eq (v : FVec Ideal S8x1x1 .f32) : k0_pay1 (F := Ideal) v = v :=
  shapeCast_self v _

/-- The updated flag accumulator: at each index the larger of the old value and the block's contribution. -/
theorem pay2_apply (v86 : FVec Ideal S8x1x1 .f32) (v92 : Vec Ideal S8x1x1 .f32) (i : S8x1x1.Idx) :
    k0_pay2 (F := Ideal) v86 v92 i = max (v92 i) (v86 i) := by
  unfold k0_pay2
  rw [shapeCast_self]
  rfl

/-- The final select: the second operand where the first is above 0, and 0 elsewhere. The comparison "greater than
    0" yields the bit 1 exactly when 0 < x, and the select returns its first branch exactly on the bit 1. -/
theorem pay3_apply (v102 v105 : Vec Ideal S8x1x1 .f32) (i : S8x1x1.Idx) :
    k0_pay3 (F := Ideal) v102 v105 i = if 0 < v102 i then v105 i else 0 := by
  show Scalar.select (Ideal.cmp .ogt (v102 i) (Ideal.ofBits .f32 0x00000000#32)) (v105 i)
      (Ideal.ofBits .f32 0x00000000#32) = _
  rw [Ideal.ofBits_zero_f32]
  by_cases h : 0 < v102 i
  · simp [Scalar.select, Ideal.cmp, h]
  · simp [Scalar.select, Ideal.cmp, h]

/-- The word 0xFF800000 (sign bit set, exponent all ones, fraction 0) denotes -∞. -/
theorem ofBits_negInf : Ideal.ofBits .f32 0xFF800000#32 = (⊥ : EReal) := by
  simp [Ideal.ofBits, Ideal.ieee]

/-- The initial maximum accumulator is -∞ at every index. -/
theorem pay4_apply (i : S8x1x1.Idx) : k0_pay4 (F := Ideal) i = ⊥ := by
  unfold k0_pay4
  rw [shapeCast_self]
  exact ofBits_negInf

/-- The initial flag accumulator is 0 at every index. -/
theorem pay5_apply (i : S8x1x1.Idx) : k0_pay5 (F := Ideal) i = 0 := by
  unfold k0_pay5
  rw [shapeCast_self]
  exact Ideal.ofBits_zero_f32

/-- One predicted row's class flag as an extended real. Comparing the class word with 0 gives the bit 1 when they are
    equal and the bit 0 otherwise; widened to 32 bits and read as a signed integer that is 1 or 0, which is the 0/1
    factor of the condition "the class word is 0". -/
theorem pay18_apply (x1 : Vec Ideal S8x512 .i32) (b : Fin 8) (r : Fin 512) :
    k0_pay18 (F := Ideal) x1 (ix2 b r) = Cert.PersonIou.maskE (Cert.PersonIou.isPerson x1 b r) := by
  unfold Cert.PersonIou.maskE Cert.PersonIou.isPerson
  show ((((IntOp.cmpi .eq (x1 (ix2 b r)) 0#32).setWidth 32).toInt : ℝ) : EReal) = _
  by_cases h : x1 (ix2 b r) = 0#32
  · rw [if_pos h, h]
    simp [IntOp.cmpi]
  · rw [if_neg h]
    have hb : (x1 (ix2 b r) == 0#32) = false := beq_eq_false_iff_ne.mpr h
    have hc : IntOp.cmpi .eq (x1 (ix2 b r)) 0#32 = 0#1 := by
      simp [IntOp.cmpi, hb]
    rw [hc]
    simp

/-- Inserting the coordinate r on axis 1 of the rank-1 index (b) gives the rank-2 index (b, r). -/
theorem lift_eq (h : S8x512.Reduces [1] S8) (b : Fin 8) (r : Fin 512) : h.lift (ix1 b) r = ix2 b r := by
  funext a
  match a with
  | ⟨0, _⟩ => exact Fin.ext rfl
  | ⟨1, _⟩ => exact Fin.ext rfl

/-- The maximum of an [8,512] vector along axis 1, started from the word of -∞, is at b the supremum over the 512
    coordinates r of the entry (b, r): the fold of max from the least element is the supremum. -/
theorem rowMax_read (src : FVec Ideal S8x512 .f32) (h : S8x512.Reduces [1] S8) (hφ : FKind.Formats .f32)
    (hacc : (0xFF800000#32 : BitVec 32) = 0xFF800000#32) (b : Fin 8) :
    multiReduction .maximumf [1] S8 src 0xFF800000#32 h hφ hacc (ix1 b)
      = Finset.univ.sup fun r : Fin 512 => src (ix2 b r) := by
  refine (Ideal.multiReduction_maximumf_single src _ h hφ hacc (ix1 b)).trans ?_
  have h0 : FloatOps.ofBits (F := Ideal) .f32 0xFF800000#32 = (⊥ : EReal) := ofBits_negInf
  have hf : (src ∘ h.lift (ix1 b)) = fun r : Fin 512 => src (ix2 b r) :=
    funext fun r => congrArg src (lift_eq h b r)
  rw [h0, hf]
  rfl

/-- The block's contribution to the flag of batch b. The two shape casts [8] → [8,1] → [8,1,1] only add unit axes, so
    the entry (b, 0, 0) is the entry b of the row maximum, which is the supremum over the rows of the class flags. -/
theorem pay19_apply (x1 : Vec Ideal S8x512 .i32) (b : Fin 8) :
    k0_pay19 (F := Ideal) x1 (ix3 b (0 : Fin 1) (0 : Fin 1)) = Cert.PersonIou.blockAny x1 b := by
  unfold k0_pay19 Cert.PersonIou.blockAny
  refine (shapeCast_apply _ shapeCasts_S8x1_S8x1x1 (ix3 b (0 : Fin 1) (0 : Fin 1)) (ix2 b (0 : Fin 1)) ?_).trans ?_
  · rw [Shape.rowMajor_val_two, Shape.rowMajor_val_three]
    show b.val * 1 + 0 = (b.val * 1 + 0) * 1 + 0
    omega
  refine (shapeCast_apply _ shapeCasts_S8_S8x1 (ix2 b (0 : Fin 1)) (ix1 b) ?_).trans ?_
  · rw [Shape.rowMajor_val_one, Shape.rowMajor_val_two]
    show b.val = b.val * 1 + 0
    omega
  refine (rowMax_read _ _ _ _ b).trans ?_
  exact congrArg (Finset.sup Finset.univ) (funext fun r => pay18_apply x1 b r)

end Cert.KernelIdeal.PayloadSmall

end
-- ==== Proof.Accum.lean ====
/-
  The value the kernel leaves in its output block for batch b is the reference's value for that batch.

  The grid has 128 points, visited in order. Point t contributes, for batch b, the largest masked IoU of its
  512 × 128 local pairs (its block maximum) and the flag "one of its 512 predicted rows counts" (its block flag,
  0 or 1). The body keeps two running accumulators per batch: the maximum, started from -∞ at the first point, and
  the flag, started from 0; each later point joins its contribution by a maximum. By induction on the point, after
  point n the accumulators hold max ⊥ (sup of the block maxima of points 0 … n) and max 0 (sup of the block flags of
  points 0 … n). The last point writes the running maximum where the running flag is positive and 0 elsewhere.
  The 128 points tile the 4096 × 2048 pairs (point t = 16 n + m holds rows 512 n … and columns 128 m …), so the
  supremum over the points of the block maxima is the supremum over all pairs of the masked IoU, and the flag is
  positive exactly when some predicted row of the batch counts: the reference's two cases.
-/
import proofs.«164905_j52501680227023_2_alg».proof.Proof.Spec
import proofs.«164905_j52501680227023_2_alg».proof.Proof.Blocks
import proofs.«164905_j52501680227023_2_alg».proof.Proof.Pieces
import proofs.«164905_j52501680227023_2_alg».proof.Proof.LibTiledSup
import proofs.«164905_j52501680227023_2_alg».proof.Proof.PayloadMax
import proofs.«164905_j52501680227023_2_alg».proof.Proof.PayloadSmall
import proofs.«164905_j52501680227023_2_alg».proof.Proof.FinalArray
import proofs.«164905_j52501680227023_2_alg».proof.Proof.Gen.KernelIdeal.Frame

noncomputable section

open Classical

namespace Cert.KernelIdeal.Accum

open Idealize.ShloMosaic Idealize.ShloMosaic.TcCoe Idealize.SL.Sem Idealize.ShloMosaic.ValueIdx
open Cert.KernelIdeal Cert.KernelIdeal.Gen Cert.PersonIou

variable (m : (ℓ : Loc nD τ sig) → Buf (Elt Ideal) ℓ)

/-- A number below 128 as a grid point. -/
def tp (t : Fin 128) : Fin cfg0.N := ⟨t.val, lt_of_lt_of_eq t.isLt N_0.symm⟩

/-- What point t contributes to the running maximum of batch b. -/
def gM (c : Dev nD) (b : Fin 8) (t : Fin 128) : EReal :=
  blockMax (iblk m c 0 (tp t) : Boxes 512) (iblk m c 1 (tp t) : Classes 512) (iblk m c 2 (tp t) : Boxes 128) b

/-- What point t contributes to the running flag of batch b. -/
def gA (c : Dev nD) (b : Fin 8) (t : Fin 128) : EReal := blockAny (iblk m c 1 (tp t) : Classes 512) b

/-- The same as functions of a natural number: the least element beyond the grid. -/
def fM (c : Dev nD) (b : Fin 8) (n : ℕ) : EReal := if h : n < 128 then gM m c b ⟨n, h⟩ else ⊥
def fA (c : Dev nD) (b : Fin 8) (n : ℕ) : EReal := if h : n < 128 then gA m c b ⟨n, h⟩ else ⊥

theorem fM_eq (c : Dev nD) (b : Fin 8) (n : ℕ) (h : n < cfg0.N) :
    fM m c b n = blockMax (iblk m c 0 ⟨n, h⟩ : Boxes 512) (iblk m c 1 ⟨n, h⟩ : Classes 512) (iblk m c 2 ⟨n, h⟩ : Boxes 128) b :=
  dif_pos (lt_of_lt_of_eq h N_0)

theorem fA_eq (c : Dev nD) (b : Fin 8) (n : ℕ) (h : n < cfg0.N) :
    fA m c b n = blockAny (iblk m c 1 ⟨n, h⟩ : Classes 512) b :=
  dif_pos (lt_of_lt_of_eq h N_0)

/-! ## One step of each accumulator -/

/-- The new running maximum at batch b: the old one joined with the point's block maximum. -/
theorem max_step (x0 : Vec Ideal S8x512x4 .f32) (x1 : Vec Ideal S8x512 .i32) (x2 : Vec Ideal S8x128x4 .f32)
    (s : Vec Ideal S8x1x1 .f32) (b : Fin 8) :
    k0_pay1 (F := Ideal) (Pieces.runMax x0 x1 x2 s) (ix3 b (0 : Fin 1) (0 : Fin 1))
      = max (s (ix3 b (0 : Fin 1) (0 : Fin 1))) (blockMax x0 x1 x2 b) := by
  rw [PayloadSmall.pay1_eq]
  exact PayloadMax.pay20_apply x0 x1 x2 s b

/-- The new running flag at batch b: the old one joined with the point's block flag. -/
theorem any_step (x1 : Vec Ideal S8x512 .i32) (s : Vec Ideal S8x1x1 .f32) (b : Fin 8) :
    k0_pay2 (F := Ideal) (k0_pay19 x1) s (ix3 b (0 : Fin 1) (0 : Fin 1))
      = max (s (ix3 b (0 : Fin 1) (0 : Fin 1))) (blockAny x1 b) := by
  rw [PayloadSmall.pay2_apply, PayloadSmall.pay19_apply]

/-- Joining one more term into a running maximum that started from z. -/
theorem sup_step (f : ℕ → EReal) (z old x : EReal) (n : ℕ) (ho : old = max z ((Finset.range (n + 1)).sup f))
    (hx : f (n + 1) = x) : max old x = max z ((Finset.range (n + 1 + 1)).sup f) := by
  subst ho hx
  rw [Finset.range_add_one (n := n + 1), Finset.sup_insert, max_assoc, max_comm (f (n + 1))]

/-! ## The accumulators after each point -/

/-- After point n the running maximum of batch b is the supremum of the block maxima of points 0 … n (joined with the
    starting value -∞) and the running flag the supremum of their block flags (joined with the starting value 0). -/
theorem inv (c : Dev nD) (b : Fin 8) : ∀ (n : ℕ) (h : n < cfg0.N),
    (outsAt0 m c n h).2.1 (ix3 b (0 : Fin 1) (0 : Fin 1)) = max ⊥ ((Finset.range (n + 1)).sup (fM m c b))
      ∧ (outsAt0 m c n h).2.2 (ix3 b (0 : Fin 1) (0 : Fin 1)) = max 0 ((Finset.range (n + 1)).sup (fA m c b))
  | 0, h => by
    have h0 : (⟨0, h⟩ : Fin cfg0.N).val % 128 = 0 := rfl
    have h1 : ¬(⟨0, h⟩ : Fin cfg0.N).val % 128 = 127 := by dsimp only; omega
    rw [outsAt0_A m c ⟨0, h⟩ h0 h1]
    dsimp only
    rw [Pieces.sout_A_0, Pieces.sout_A_1, max_step, any_step, PayloadSmall.pay4_apply, PayloadSmall.pay5_apply,
      Finset.range_one, Finset.sup_singleton, Finset.sup_singleton, fM_eq m c b 0 h, fA_eq m c b 0 h]
    exact ⟨rfl, rfl⟩
  | n + 1, h => by
    have ih := inv c b n (Nat.lt_of_succ_lt h)
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      rw [Pieces.sout_C_0, Pieces.sout_C_1, max_step, any_step]
      exact ⟨sup_step _ _ _ _ n ih.1 (fM_eq m c b (n + 1) h), sup_step _ _ _ _ n ih.2 (fA_eq m c b (n + 1) h)⟩
    · rw [outsAt0_B m c ⟨n + 1, h⟩ h0 h1]
      dsimp only
      rw [Pieces.sout_B_0, Pieces.sout_B_1, max_step, any_step]
      exact ⟨sup_step _ _ _ _ n ih.1 (fM_eq m c b (n + 1) h), sup_step _ _ _ _ n ih.2 (fA_eq m c b (n + 1) h)⟩

/-! ## The last point's output -/

/-- The last point writes, for batch b, the running maximum where the running flag is positive and 0 elsewhere. -/
theorem out_select (c : Dev nD) (b : Fin 8) (n : ℕ) (h : n < cfg0.N) (h1 : n % 128 = 127) :
    (outsAt0 m c n h).1 (ix3 b (0 : Fin 1) (0 : Fin 1))
      = if 0 < (outsAt0 m c n h).2.2 (ix3 b (0 : Fin 1) (0 : Fin 1))
        then (outsAt0 m c n h).2.1 (ix3 b (0 : Fin 1) (0 : Fin 1)) else 0 := by
  have h0 : ¬(⟨n, h⟩ : Fin cfg0.N).val % 128 = 0 := by dsimp only; omega
  rw [outsAt0_C m c ⟨n, h⟩ h0 h1]
  dsimp only
  rw [Pieces.out_C_3, Pieces.sout_C_0, Pieces.sout_C_1, PayloadSmall.pay3_apply]

/-! ## The points tile the pairs -/

/-- Every (predicted row, ground-truth row) pair lies in some point's block. -/
theorem pair_surj (i : Fin 4096) (j : Fin 2048) : ∃ (t : Fin 128) (r : Fin 512) (k : Fin 128), rowOf t r = i ∧ colOf t k = j :=
  LibTiledSup.tile_surj i j

/-- Every predicted row lies in some point's block. -/
theorem row_surj (i : Fin 4096) : ∃ (t : Fin 128) (r : Fin 512), rowOf t r = i := by
  obtain ⟨t, r, _, hr, _⟩ := pair_surj i 0
  exact ⟨t, r, hr⟩

/-- A point's block maximum in the arrays' coordinates. -/
theorem gM_eq (c : Dev nD) (b : Fin 8) (t : Fin 128) :
    gM m c b t = Finset.univ.sup fun r : Fin 512 =>
      (Finset.univ.sup fun j : Fin 128 => iouOf (Blocks.pbOf m c) (Blocks.gbOf m c) b (rowOf t r) (colOf t j)
          * (if isValid (Blocks.gbOf m c) b (colOf t j) then (1 : EReal) else 0))
        * (if isPerson (Blocks.pcOf m c) b (rowOf t r) then (1 : EReal) else 0) :=
  Blocks.blockMax_blk m c (tp t) b

/-- A point's block flag in the arrays' coordinates. -/
theorem gA_eq (c : Dev nD) (b : Fin 8) (t : Fin 128) :
    gA m c b t = Finset.univ.sup fun r : Fin 512 =>
      if isPerson (Blocks.pcOf m c) b (rowOf t r) then (1 : EReal) else 0 :=
  Blocks.blockAny_blk m c (tp t) b

/-- The supremum over the points of the block maxima is the supremum over all pairs of the masked IoU. -/
theorem sup_fM (c : Dev nD) (b : Fin 8) :
    (Finset.range (127 + 1)).sup (fM m c b)
      = Finset.univ.sup fun r : Fin 4096 => Finset.univ.sup fun k : Fin 2048 =>
          masked (Blocks.pbOf m c) (Blocks.pcOf m c) (Blocks.gbOf m c) b r k := by
  refine (LibTiledSup.sup_range_dite (N := 128) (gM m c b)).trans ?_
  rw [funext (gM_eq m c b)]
  exact LibTiledSup.tiled_masked_sup (T := Fin 128) (Rl := Fin 512) (Cl := Fin 128) rowOf colOf pair_surj
    (iouOf (Blocks.pbOf m c) (Blocks.gbOf m c) b) (isPerson (Blocks.pcOf m c) b) (isValid (Blocks.gbOf m c) b)

/-- The running flag after the last point is positive exactly when some predicted row of the batch counts. -/
theorem flag_pos (c : Dev nD) (b : Fin 8) :
    (0 : EReal) < max 0 ((Finset.range (127 + 1)).sup (fA m c b)) ↔ ∃ r : Fin 4096, isPerson (Blocks.pcOf m c) b r := by
  rw [show (Finset.range (127 + 1)).sup (fA m c b) = Finset.univ.sup (gA m c b) from
    LibTiledSup.sup_range_dite (N := 128) (gA m c b), funext (gA_eq m c b)]
  exact LibTiledSup.tiled_any_pos (T := Fin 128) (Rl := Fin 512) rowOf row_surj (isPerson (Blocks.pcOf m c) b)

/-! ## The claim -/

/-- At the last point's number n the output block at batch b is the reference's value for batch b. -/
theorem out_value_at (c : Dev nD) (b : Fin 8) (n : ℕ) (h : n < cfg0.N) (hn : n = 127) :
    (outsAt0 m c n h).1 (ix3 b (0 : Fin 1) (0 : Fin 1))
      = perBatch (Blocks.pbOf m c) (Blocks.pcOf m c) (Blocks.gbOf m c) b := by
  rw [out_select m c b n h (by omega), (inv m c b n h).1, (inv m c b n h).2]
  subst hn
  unfold perBatch
  by_cases hE : ∃ r : Fin 4096, isPerson (Blocks.pcOf m c) b r
  · rw [if_pos ((flag_pos m c b).2 hE), if_pos hE, max_bot_left, sup_fM]
  · rw [if_neg (fun hp => hE ((flag_pos m c b).1 hp)), if_neg hE]

/-- The output block at batch b, after the last point, is the reference's value for batch b. -/
theorem out_value (c : Dev nD) (b : Fin 8) :
    (outsAt0 m c 127 FinalArray.last_lt).1 (ix3 b (0 : Fin 1) (0 : Fin 1))
      = perBatch (Blocks.pbOf m c) (Blocks.pcOf m c) (Blocks.gbOf m c) b :=
  out_value_at m c b 127 FinalArray.last_lt rfl

end Cert.KernelIdeal.Accum

end
-- ==== Proof.KernelValue.lean ====
/-
  The kernel's program, run and read. Its grid leaves in the output array, for each batch, the largest masked
  IoU when the batch has a counted predicted box and 0 otherwise (the running maximum and the flag carried over
  the 128 grid points, selected at the last one); the host operations after the grid read that array as a
  vector of eight and end with the mean and the union maximum. So the program's result is the common ending
  applied to the per-batch values of the specification, and the argument arrays are left as they were.
-/
import proofs.«164905_j52501680227023_2_alg».proof.Proof.Tail
import proofs.«164905_j52501680227023_2_alg».proof.Proof.FinalArray
import proofs.«164905_j52501680227023_2_alg».proof.Proof.Accum

noncomputable section

namespace Cert.KernelIdeal.KernelValue

open Idealize.ShloMosaic Idealize.ShloMosaic.TcCoe Idealize.SL.Sem Idealize.ShloMosaic.ValueIdx
open Cert.KernelIdeal Cert.KernelIdeal.Gen Cert.PersonIou

variable (m : (ℓ : Loc nD τ sig) → Buf (Elt Ideal) ℓ) (ρ : Dev nD → PrngReg)

/-- The eight per-batch values of the specification, as a vector. -/
def perBatchVec (pb : Boxes 4096) (pc : Classes 4096) (gb : Boxes 2048) : (⟨S8, .f32⟩ : BufTy).Contents (Elt Ideal) :=
  fun j => perBatch pb pc gb (j 0)

/-- The output array [8,1,1], read as a vector of eight, holds the per-batch values. -/
theorem vec_eq (c : Dev nD) :
    shapeCast S8 ((dats m 0 c).arrAt 3 cfg0.N) shapeCasts_S8x1x1_S8
      = perBatchVec (Blocks.pbOf m c) (Blocks.pcOf m c) (Blocks.gbOf m c) := by
  funext j
  obtain ⟨b, rfl⟩ : ∃ b : Fin 8, j = ix1 b := ⟨j 0, eq_ix1 j⟩
  rw [FinalArray.final3]
  refine (shapeCast_apply _ shapeCasts_S8x1x1_S8 (ix1 b) (ix3 b (0 : Fin 1) (0 : Fin 1)) ?_).trans (Accum.out_value m c b)
  rw [Shape.rowMajor_val_three, Shape.rowMajor_val_one]
  show (b.val * 1 + 0) * 1 + 0 = b.val
  omega

/-- The run: the result is the common ending of the per-batch values and the union arrays; the arguments are unchanged. -/
theorem run : θ_run defs (onTc (τ := τ) (main (F := Ideal))) ⟨m, fun _ => 0, ρ⟩ (fun r => ∀ c : Dev nD,
      r.2.mem ((c.tc : Thread nD τ).loc main_v10)
          = Tail.tailOf (perBatchVec (Blocks.pbOf m c) (Blocks.pcOf m c) (Blocks.gbOf m c))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans
        ((Tail.tail_eq m c).trans (congrArg (fun y => Tail.tailOf y _ _) (vec_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.RefValue.lean ====
/-
  The reference's value for one batch, read off its operations one at a time.

  For batch b the reference forms, for every pair of a predicted box r and a ground-truth box c, the intersection
  over union of the two boxes, keeps it where box r has class word 0 and the coordinates of box c do not sum to 0
  and puts 0 elsewhere, takes the maximum over all pairs, and answers that maximum when some predicted box of the
  batch has class word 0 and 0 otherwise. Below: each sliced, reshaped and broadcast column is the box array at one
  corner coordinate; the arithmetic on them is the shared `interOf`, `areaOf`, `iouOf`; the two tests are `isPerson` and
  `isValid`; a maximum from minus infinity over two axes is a supremum over rows of a supremum over columns; an "or"
  from 0 over an axis is an existential. `ref_value` puts them together.
-/
import proofs.«164905_j52501680227023_2_alg».proof.Proof.Spec
import proofs.«164905_j52501680227023_2_alg».proof.Proof.RefRead
import Idealize.ShloMosaic.Lib.ValueIdx
import Idealize.ShloMosaic.PureOps.Reduce

noncomputable section

open scoped BigOperators
open Classical

namespace Cert.ReferenceIdeal.RefValue

open Idealize.ShloMosaic Idealize.ShloMosaic.ValueIdx Cert.ReferenceIdeal Cert.ReferenceIdeal.Read Cert.PersonIou

/-! ### Words and folds -/

/-- On one-bit words, an "or" is 1 exactly when one of its operands is. -/
theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The "or" of a family of one-bit words, from 0, is 1 exactly when one of them is. -/
theorem fold_ori_eq_one_iff {ι : Type} (s : Finset ι) (f : ι → BitVec 1) :
    s.fold IntOp.ori 0#1 f = 1#1 ↔ ∃ k ∈ s, f k = 1#1 := by
  induction s using Finset.cons_induction with
  | empty => simp
  | cons a s ha ih =>
    rw [Finset.fold_cons, ori_eq_one_iff, ih]
    simp [Finset.mem_cons]

/-- The maximum of a family of extended reals, from the bottom element, is its supremum. -/
theorem fold_maximumf_bot_eq_sup {ι : Type} (s : Finset ι) (f : ι → EReal) :
    s.fold (FloatOps.maximumf (F := Ideal) (φ := .f32)) (⊥ : EReal) f = s.sup f := by
  induction s using Finset.cons_induction with
  | empty => simp
  | cons a s ha ih =>
    rw [Finset.fold_cons, Finset.sup_cons, ih]
    rfl

/-- The f32 word of minus infinity is the bottom of the extended reals. -/
theorem ofBits_neg_inf : Ideal.ofBits .f32 0xFF800000#32 = (⊥ : EReal) := by
  simp [Ideal.ofBits, Ideal.ieee]

/-- A maximum over the last two axes of an 8 × 4096 × 2048 array, from minus infinity, is at batch b the supremum over
    the rows of the supremum over the columns. -/
theorem reduce_max_rows_cols (h : (⟨3, ![8, 4096, 2048]⟩ : Shape).ReducesTo [1, 2] ⟨1, ![8]⟩)
    (hu : 0 < (⟨0, ![]⟩ : Shape).numel) (x : (⟨3, ![8, 4096, 2048]⟩ : Shape).Idx → EReal)
    (init : (⟨0, ![]⟩ : Shape).Idx → EReal) (hinit : init (Shape.Idx.first hu) = ⊥) (b : Fin 8) :
    Host.reduce (FloatOps.maximumf (F := Ideal) (φ := .f32)) x init h hu (ix1 b)
      = Finset.univ.sup fun r : Fin 4096 => Finset.univ.sup fun c : Fin 2048 => x (ix3 b r c) := by
  rw [Host.reduce_eq_fold, hinit, fold_maximumf_bot_eq_sup]
  have hdrop : ∀ i : (⟨3, ![8, 4096, 2048]⟩ : Shape).Idx, h.drop i = ix1 b ↔ i 0 = b := by
    intro i
    constructor
    · intro e
      have := congrArg (fun j : (⟨1, ![8]⟩ : Shape).Idx => (j 0 : Nat)) e
      exact Fin.ext ((h.drop_apply_val_of_eq i 0 0).symm.trans this)
    · intro e
      funext a
      match a with
      | ⟨0, _⟩ => exact Fin.ext ((h.drop_apply_val_of_eq i 0 0).trans (congrArg Fin.val e))
  apply le_antisymm
  · refine Finset.sup_le fun i hi => ?_
    have hb : i 0 = b := (hdrop i).1 (Finset.mem_filter.1 hi).2
    have hi3 : i = ix3 b (i 1) (i 2) := by rw [← hb]; exact eq_ix3 i
    rw [hi3]
    exact le_trans (Finset.le_sup (f := fun c : Fin 2048 => x (ix3 b (i 1) c)) (Finset.mem_univ (i 2)))
      (Finset.le_sup (f := fun r : Fin 4096 => Finset.univ.sup fun c : Fin 2048 => x (ix3 b r c)) (Finset.mem_univ (i 1)))
  · refine Finset.sup_le fun r _ => Finset.sup_le fun c _ => ?_
    exact Finset.le_sup (f := x) (Finset.mem_filter.2 ⟨Finset.mem_univ _, (hdrop (ix3 b r c)).2 rfl⟩)

/-- An "or" over the last axis of an 8 × 4096 array of one-bit words, from 0, is 1 at batch b exactly when some entry of
    the batch is. -/
theorem reduce_or_rows (h : (⟨2, ![8, 4096]⟩ : Shape).ReducesTo [1] ⟨1, ![8]⟩)
    (hu : 0 < (⟨0, ![]⟩ : Shape).numel) (x : (⟨2, ![8, 4096]⟩ : Shape).Idx → BitVec 1)
    (init : (⟨0, ![]⟩ : Shape).Idx → BitVec 1) (hinit : init (Shape.Idx.first hu) = 0#1) (b : Fin 8) :
    Host.reduce IntOp.ori x init h hu (ix1 b) = 1#1 ↔ ∃ r : Fin 4096, x (ix2 b r) = 1#1 := by
  rw [Host.reduce_eq_fold, hinit, fold_ori_eq_one_iff]
  have hdrop : ∀ i : (⟨2, ![8, 4096]⟩ : Shape).Idx, h.drop i = ix1 b ↔ i 0 = b := by
    intro i
    constructor
    · intro e
      have := congrArg (fun j : (⟨1, ![8]⟩ : Shape).Idx => (j 0 : Nat)) e
      exact Fin.ext ((h.drop_apply_val_of_eq i 0 0).symm.trans this)
    · intro e
      funext a
      match a with
      | ⟨0, _⟩ => exact Fin.ext ((h.drop_apply_val_of_eq i 0 0).trans (congrArg Fin.val e))
  constructor
  · rintro ⟨i, hi, h1⟩
    have hb : i 0 = b := (hdrop i).1 (Finset.mem_filter.1 hi).2
    refine ⟨i 1, ?_⟩
    have hi2 : i = ix2 b (i 1) := by rw [← hb]; exact eq_ix2 i
    exact (congrArg x hi2).symm.trans h1
  · rintro ⟨r, h1⟩
    exact ⟨ix2 b r, Finset.mem_filter.2 ⟨Finset.mem_univ _, (hdrop (ix2 b r)).2 rfl⟩, h1⟩

/-- On one-bit words, an "and" is 1 exactly when both operands are. -/
theorem andi_eq_one_iff (x y : BitVec 1) : IntOp.andi x y = 1#1 ↔ x = 1#1 ∧ y = 1#1 := by
  rcases BitVec.eq_zero_or_eq_one x with rfl | rfl <;> rcases BitVec.eq_zero_or_eq_one y with rfl | rfl <;> decide

/-- The equality comparison of two words answers 1 exactly when they are equal. -/
theorem cmpi_eq_one_iff {w : Nat} (x y : BitVec w) : IntOp.cmpi .eq x y = 1#1 ↔ x = y := by
  show BitVec.ofBool (x == y) = 1#1 ↔ x = y
  by_cases h : x = y
  · subst h; simp
  · have hb : (x == y) = false := beq_eq_false_iff_ne.2 h
    rw [hb]
    exact ⟨fun h' => absurd h' (by decide), fun h' => absurd h' h⟩

/-- The "not equal" comparison of two extended reals answers 1 exactly when they differ. -/
theorem cmp_une_eq_one_iff (x y : EReal) : Ideal.cmp .une x y = 1#1 ↔ x ≠ y := by
  show BitVec.ofBool (decide (x ≠ y)) = 1#1 ↔ x ≠ y
  by_cases h : x = y <;> simp [h]

/-! ### Reading the reference's arrays at one index

`pb` holds the predicted boxes, `pc` their class words, `gb` the ground-truth boxes. -/

variable (pb : (⟨S8x4096x4, .f32⟩ : BufTy).Contents (Elt Ideal)) (pc : (⟨S8x4096, .i32⟩ : BufTy).Contents (Elt Ideal))
  (gb : (⟨S8x2048x4, .f32⟩ : BufTy).Contents (Elt Ideal))

/-! Each sliced and reshaped column of a box array is the array at that corner coordinate. -/

theorem p_v3 (b : Fin 8) (r : Fin 4096) :
    val_main_v3 (F := Ideal) pb (ix3 b r (0 : Fin 1)) = pb (ix3 b r (2 : Fin 4)) := by
  rw [val_main_v3_apply, val_main_v2_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v10 (b : Fin 8) (r : Fin 4096) :
    val_main_v10 (F := Ideal) pb (ix3 b r (0 : Fin 1)) = pb (ix3 b r (0 : Fin 4)) := by
  rw [val_main_v10_apply, val_main_v9_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v20 (b : Fin 8) (r : Fin 4096) :
    val_main_v20 (F := Ideal) pb (ix3 b r (0 : Fin 1)) = pb (ix3 b r (3 : Fin 4)) := by
  rw [val_main_v20_apply, val_main_v19_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v27 (b : Fin 8) (r : Fin 4096) :
    val_main_v27 (F := Ideal) pb (ix3 b r (0 : Fin 1)) = pb (ix3 b r (1 : Fin 4)) := by
  rw [val_main_v27_apply, val_main_v26_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v38 (b : Fin 8) (r : Fin 4096) :
    val_main_v38 (F := Ideal) pb (ix3 b r (0 : Fin 1)) = pb (ix3 b r (2 : Fin 4)) := by
  rw [val_main_v38_apply, val_main_v37_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v40 (b : Fin 8) (r : Fin 4096) :
    val_main_v40 (F := Ideal) pb (ix3 b r (0 : Fin 1)) = pb (ix3 b r (0 : Fin 4)) := by
  rw [val_main_v40_apply, val_main_v39_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v43 (b : Fin 8) (r : Fin 4096) :
    val_main_v43 (F := Ideal) pb (ix3 b r (0 : Fin 1)) = pb (ix3 b r (3 : Fin 4)) := by
  rw [val_main_v43_apply, val_main_v42_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem p_v45 (b : Fin 8) (r : Fin 4096) :
    val_main_v45 (F := Ideal) pb (ix3 b r (0 : Fin 1)) = pb (ix3 b r (1 : Fin 4)) := by
  rw [val_main_v45_apply, val_main_v44_apply, val_main_v0_apply]
  exact congrArg pb (funext fun a => Fin.ext (by
    match a with
    | ⟨0, _⟩ => show ((b.val * 4096 + r.val) * 1 + 0) / 4096 = b.val; omega
    | ⟨1, _⟩ => show ((b.val * 4096 + r.val) * 1 + 0) / 1 % 4096 = r.val; omega
    | ⟨2, _⟩ => rfl))
theorem g_v5 (b : Fin 8) (c : Fin 2048) :
    val_main_v5 (F := Ideal) gb (ix3 b (0 : Fin 1) c) = gb (ix3 b c (2 : Fin 4)) := by
  rw [val_main_v5_apply, val_main_v4_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v12 (b : Fin 8) (c : Fin 2048) :
    val_main_v12 (F := Ideal) gb (ix3 b (0 : Fin 1) c) = gb (ix3 b c (0 : Fin 4)) := by
  rw [val_main_v12_apply, val_main_v11_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v22 (b : Fin 8) (c : Fin 2048) :
    val_main_v22 (F := Ideal) gb (ix3 b (0 : Fin 1) c) = gb (ix3 b c (3 : Fin 4)) := by
  rw [val_main_v22_apply, val_main_v21_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v29 (b : Fin 8) (c : Fin 2048) :
    val_main_v29 (F := Ideal) gb (ix3 b (0 : Fin 1) c) = gb (ix3 b c (1 : Fin 4)) := by
  rw [val_main_v29_apply, val_main_v28_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v49 (b : Fin 8) (c : Fin 2048) :
    val_main_v49 (F := Ideal) gb (ix3 b (0 : Fin 1) c) = gb (ix3 b c (2 : Fin 4)) := by
  rw [val_main_v49_apply, val_main_v48_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v51 (b : Fin 8) (c : Fin 2048) :
    val_main_v51 (F := Ideal) gb (ix3 b (0 : Fin 1) c) = gb (ix3 b c (0 : Fin 4)) := by
  rw [val_main_v51_apply, val_main_v50_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v54 (b : Fin 8) (c : Fin 2048) :
    val_main_v54 (F := Ideal) gb (ix3 b (0 : Fin 1) c) = gb (ix3 b c (3 : Fin 4)) := by
  rw [val_main_v54_apply, val_main_v53_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))
theorem g_v56 (b : Fin 8) (c : Fin 2048) :
    val_main_v56 (F := Ideal) gb (ix3 b (0 : Fin 1) c) = gb (ix3 b c (1 : Fin 4)) := by
  rw [val_main_v56_apply, val_main_v55_apply, val_main_v1_apply]
  exact congrArg gb (funext fun a => Fin.ext (by
    match a with
    | ⟨0, _⟩ => show ((b.val * 1 + 0) * 2048 + c.val) / 2048 = b.val; omega
    | ⟨1, _⟩ => show ((b.val * 1 + 0) * 2048 + c.val) / 1 % 2048 = c.val; omega
    | ⟨2, _⟩ => rfl))

/-! Broadcast over the grid of pairs, a predicted column depends on the row only, a ground-truth column on the column only. -/

theorem v6_at (b : Fin 8) (r : Fin 4096) (c : Fin 2048) :
    val_main_v6 (F := Ideal) pb (ix3 b r c) = pb (ix3 b r (2 : Fin 4)) := by
  have e : idx_main_v6 (ix3 b r c) = ix3 b r (0 : Fin 1) :=
    funext fun a => Fin.ext (by match a with | ⟨0, _⟩ => rfl | ⟨1, _⟩ => rfl | ⟨2, _⟩ => rfl)
  rw [val_main_v6_apply, e, p_v3]
theorem v13_at (b : Fin 8) (r : Fin 4096) (c : Fin 2048) :
    val_main_v13 (F := Ideal) pb (ix3 b r c) = pb (ix3 b r (0 : Fin 4)) := by
  have e : idx_main_v13 (ix3 b r c) = ix3 b r (0 : Fin 1) :=
    funext fun a => Fin.ext (by match a with | ⟨0, _⟩ => rfl | ⟨1, _⟩ => rfl | ⟨2, _⟩ => rfl)
  rw [val_main_v13_apply, e, p_v10]
theorem v23_at (b : Fin 8) (r : Fin 4096) (c : Fin 2048) :
    val_main_v23 (F := Ideal) pb (ix3 b r c) = pb (ix3 b r (3 : Fin 4)) := by
  have e : idx_main_v23 (ix3 b r c) = ix3 b r (0 : Fin 1) :=
    funext fun a => Fin.ext (by match a with | ⟨0, _⟩ => rfl | ⟨1, _⟩ => rfl | ⟨2, _⟩ => rfl)
  rw [val_main_v23_apply, e, p_v20]
theorem v30_at (b : Fin 8) (r : Fin 4096) (c : Fin 2048) :
    val_main_v30 (F := Ideal) pb (ix3 b r c) = pb (ix3 b r (1 : Fin 4)) := by
  have e : idx_main_v30 (ix3 b r c) = ix3 b r (0 : Fin 1) :=
    funext fun a => Fin.ext (by match a with | ⟨0, _⟩ => rfl | ⟨1, _⟩ => rfl | ⟨2, _⟩ => rfl)
  rw [val_main_v30_apply, e, p_v27]
theorem v7_at (b : Fin 8) (r : Fin 4096) (c : Fin 2048) :
    val_main_v7 (F := Ideal) gb (ix3 b r c) = gb (ix3 b c (2 : Fin 4)) := by
  have e : idx_main_v7 (ix3 b r c) = ix3 b (0 : Fin 1) c :=
    funext fun a => Fin.ext (by match a with | ⟨0, _⟩ => rfl | ⟨1, _⟩ => rfl | ⟨2, _⟩ => rfl)
  rw [val_main_v7_apply, e, g_v5]
theorem v14_at (b : Fin 8) (r : Fin 4096) (c : Fin 2048) :
    val_main_v14 (F := Ideal) gb (ix3 b r c) = gb (ix3 b c (0 : Fin 4)) := by
  have e : idx_main_v14 (ix3 b r c) = ix3 b (0 : Fin 1) c :=
    funext fun a => Fin.ext (by match a with | ⟨0, _⟩ => rfl | ⟨1, _⟩ => rfl | ⟨2, _⟩ => rfl)
  rw [val_main_v14_apply, e, g_v12]
theorem v24_at (b : Fin 8) (r : Fin 4096) (c : Fin 2048) :
    val_main_v24 (F := Ideal) gb (ix3 b r c) = gb (ix3 b c (3 : Fin 4)) := by
  have e : idx_main_v24 (ix3 b r c) = ix3 b (0 : Fin 1) c :=
    funext fun a => Fin.ext (by match a with | ⟨0, _⟩ => rfl | ⟨1, _⟩ => rfl | ⟨2, _⟩ => rfl)
  rw [val_main_v24_apply, e, g_v22]
theorem v31_at (b : Fin 8) (r : Fin 4096) (c : Fin 2048) :
    val_main_v31 (F := Ideal) gb (ix3 b r c) = gb (ix3 b c (1 : Fin 4)) := by
  have e : idx_main_v31 (ix3 b r c) = ix3 b (0 : Fin 1) c :=
    funext fun a => Fin.ext (by match a with | ⟨0, _⟩ => rfl | ⟨1, _⟩ => rfl | ⟨2, _⟩ => rfl)
  rw [val_main_v31_apply, e, g_v29]

/-- The intersection area of the pair (r, c). -/
theorem v36_at (b : Fin 8) (r : Fin 4096) (c : Fin 2048) :
    val_main_v36 (F := Ideal) pb gb (ix3 b r c) = interOf pb gb b r c := by
  rw [val_main_v36_apply, val_main_v18_apply, val_main_v35_apply, val_main_v16_apply, val_main_v33_apply,
    val_main_v8_apply, val_main_v15_apply, val_main_v25_apply, val_main_v32_apply, v6_at, v7_at, v13_at, v14_at,
    v23_at, v24_at, v30_at, v31_at, val_main_v17_apply, val_main_cst_apply, val_main_v34_apply, val_main_cst_0_apply]
  rfl

/-- The area of predicted box r. -/
theorem v47_at (b : Fin 8) (r : Fin 4096) :
    val_main_v47 (F := Ideal) pb (ix3 b r (0 : Fin 1)) = areaOf pb b r := by
  rw [val_main_v47_apply, val_main_v41_apply, val_main_v46_apply, p_v38, p_v40, p_v43, p_v45]
  rfl

/-- The area of ground-truth box c. -/
theorem v58_at (b : Fin 8) (c : Fin 2048) :
    val_main_v58 (F := Ideal) gb (ix3 b (0 : Fin 1) c) = areaOf gb b c := by
  rw [val_main_v58_apply, val_main_v52_apply, val_main_v57_apply, g_v49, g_v51, g_v54, g_v56]
  rfl

theorem v59_at (b : Fin 8) (r : Fin 4096) (c : Fin 2048) :
    val_main_v59 (F := Ideal) pb (ix3 b r c) = areaOf pb b r := by
  have e : idx_main_v59 (ix3 b r c) = ix3 b r (0 : Fin 1) :=
    funext fun a => Fin.ext (by match a with | ⟨0, _⟩ => rfl | ⟨1, _⟩ => rfl | ⟨2, _⟩ => rfl)
  rw [val_main_v59_apply, e, v47_at]

theorem v60_at (b : Fin 8) (r : Fin 4096) (c : Fin 2048) :
    val_main_v60 (F := Ideal) gb (ix3 b r c) = areaOf gb b c := by
  have e : idx_main_v60 (ix3 b r c) = ix3 b (0 : Fin 1) c :=
    funext fun a => Fin.ext (by match a with | ⟨0, _⟩ => rfl | ⟨1, _⟩ => rfl | ⟨2, _⟩ => rfl)
  rw [val_main_v60_apply, e, v58_at]

/-- The intersection over union of the pair (r, c). -/
theorem v65_at (b : Fin 8) (r : Fin 4096) (c : Fin 2048) :
    val_main_v65 (F := Ideal) pb gb (ix3 b r c) = iouOf pb gb b r c := by
  rw [val_main_v65_apply, val_main_v64_apply, val_main_v62_apply, val_main_v61_apply, v59_at, v60_at, v36_at,
    val_main_v63_apply, val_main_cst_1_apply]
  rfl

/-- The class test of predicted box r. -/
theorem v67_at (b : Fin 8) (r : Fin 4096) :
    val_main_v67 (F := Ideal) pc (ix2 b r) = IntOp.cmpi .eq (pc (ix2 b r)) 0#32 := by
  rw [val_main_v67_apply, val_main_v66_apply, val_main_c_apply]

theorem v73_at (b : Fin 8) (r : Fin 4096) (c : Fin 2048) :
    val_main_v73 (F := Ideal) pc (ix3 b r c) = IntOp.cmpi .eq (pc (ix2 b r)) 0#32 := by
  have e : idx_main_v71 (idx_main_v73 (ix3 b r c)) = ix2 b r :=
    funext fun a => Fin.ext (by match a with | ⟨0, _⟩ => rfl | ⟨1, _⟩ => rfl)
  rw [val_main_v73_apply, val_main_v71_apply, e, v67_at]

/-- The coordinate sum of ground-truth box c. -/
theorem v68_at (b : Fin 8) (c : Fin 2048) :
    val_main_v68 (F := Ideal) gb (ix2 b c) = rowSum gb b c := by
  rw [val_main_v68_apply, val_main_cst_2_apply]
  show Ideal.ofBits .f32 0x00000000#32 + _ = _
  rw [Ideal.ofBits_zero_f32, zero_add]
  unfold rowSum
  exact Finset.sum_congr rfl fun k _ => congrArg gb (funext fun a => Fin.ext (by
    match a with | ⟨0, _⟩ => rfl | ⟨1, _⟩ => rfl | ⟨2, _⟩ => rfl))

/-- The validity test of ground-truth box c. -/
theorem v74_at (b : Fin 8) (r : Fin 4096) (c : Fin 2048) :
    val_main_v74 (F := Ideal) gb (ix3 b r c) = Ideal.cmp .une (rowSum gb b c) 0 := by
  have e : idx_main_v72 (idx_main_v74 (ix3 b r c)) = ix2 b c :=
    funext fun a => Fin.ext (by match a with | ⟨0, _⟩ => rfl | ⟨1, _⟩ => rfl)
  rw [val_main_v74_apply, val_main_v72_apply, e, val_main_v70_apply, v68_at, val_main_v69_apply, val_main_cst_3_apply]
  show Ideal.cmp .une (rowSum gb b c) (Ideal.ofBits .f32 0x00000000#32) = _
  rw [Ideal.ofBits_zero_f32]

/-- The masked intersection over union of the pair (r, c). -/
theorem v76_at (b : Fin 8) (r : Fin 4096) (c : Fin 2048) :
    val_main_v76 (F := Ideal) pb pc gb (ix3 b r c) = masked pb pc gb b r c := by
  rw [val_main_v76_apply, val_main_v75_apply, v73_at, v74_at, v65_at, val_main_call0_v1_apply,
    val_main_call0_v0_apply, val_main_cst_4_apply]
  unfold masked Scalar.select
  refine if_congr ?_ rfl Ideal.ofBits_zero_f32
  exact (andi_eq_one_iff _ _).trans (and_congr (cmpi_eq_one_iff _ _) (cmp_une_eq_one_iff _ _))

/-- The maximum over all pairs of batch b. -/
theorem v77_at (b : Fin 8) :
    val_main_v77 (F := Ideal) pb pc gb (ix1 b)
      = Finset.univ.sup fun r : Fin 4096 => Finset.univ.sup fun c : Fin 2048 => masked pb pc gb b r c := by
  unfold val_main_v77
  refine (reduce_max_rows_cols _ _ _ _ ?_ b).trans ?_
  · rw [val_main_cst_5_apply]; exact ofBits_neg_inf
  · exact Finset.sup_congr rfl fun r _ => Finset.sup_congr rfl fun c _ => v76_at pb pc gb b r c

/-- Batch b has a counted predicted box exactly when the "or" of the class tests is 1. -/
theorem v78_iff (b : Fin 8) :
    val_main_v78 (F := Ideal) pc (ix1 b) = 1#1 ↔ ∃ r : Fin 4096, isPerson pc b r := by
  unfold val_main_v78
  refine (reduce_or_rows _ _ _ _ (val_main_c_6_apply _) b).trans (exists_congr fun r => ?_)
  rw [v67_at, cmpi_eq_one_iff]
  exact Iff.rfl

/-- The reference's value for batch b. -/
theorem ref_value (b : Fin 8) :
    val_main_v79 (F := Ideal) pb pc gb (ix1 b) = Cert.PersonIou.perBatch pb pc gb b := by
  rw [val_main_v79_apply, v77_at, val_main_call1_v1_apply, val_main_call1_v0_apply, val_main_cst_7_apply]
  unfold perBatch Scalar.select
  by_cases hp : ∃ r : Fin 4096, isPerson pc b r
  · exact (if_pos ((v78_iff pc b).2 hp)).trans (if_pos hp).symm
  · exact (if_neg (mt (v78_iff pc b).1 hp)).trans (Ideal.ofBits_zero_f32.trans (if_neg hp).symm)

end Cert.ReferenceIdeal.RefValue

end
-- ==== Proof.RefRun.lean ====
/-
  The reference program's run, stated at the stage functions: every weakly fair execution terminates with the
  result at the last stage's value of the launch contents of the arguments, and the arguments unchanged.
-/
import proofs.«164905_j52501680227023_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = Read.val_main_v88 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v88_eq m c), (h c).2⟩) (Cert.ReferenceIdeal.Value.run m ρ)

end Cert.ReferenceIdeal.RefRun

end
-- ==== Proof.lean ====
/-
  The certificate of the person-IoU kernel against its jnp reference.

  Both programs return a pair: the largest union score among the class-0 entries, and the mean over the eight
  batches of a per-batch value. The per-batch value is the largest intersection-over-union between a predicted
  box whose class word is 0 and a ground-truth box whose coordinates do not sum to 0 (every other pair counting
  as 0), and 0 when the batch has no predicted box of class 0.

  The reference takes that maximum over all 4096 × 2048 pairs at once, the mask applied by a select. The kernel
  walks an 8 × 16 grid of (512 predicted rows) × (128 ground-truth rows) tiles; in each tile it applies the two
  masks as 0/1 factors — first along the ground-truth columns, then along the predicted rows —, takes the tile's
  maximum, and joins it into a running maximum carried from tile to tile (started at minus infinity), beside a
  running flag "a class-0 predicted box was seen" (started at 0); after the last tile it selects the running
  maximum where the flag is positive and 0 elsewhere. On the extended reals 0 · x = 0 and 1 · x = x for every x,
  so a 0/1 factor is the select, a maximum of tile maxima is the maximum over the union of the tiles, and the
  tiles cover every pair: the two per-batch values are equal with no finiteness assumption. The host
  operations after the grid (mean, union maximum, pairing) are the same in both programs and are carried as one
  function, never opened. The ideal pass rewrote nothing in the kernel, so the preservation claim is trivial.
-/
import proofs.«164905_j52501680227023_2_alg».proof.Defs
import proofs.«164905_j52501680227023_2_alg».proof.Proof.Gen.Kernel
import proofs.«164905_j52501680227023_2_alg».proof.Proof.Gen.Kernel.Skeleton
import proofs.«164905_j52501680227023_2_alg».proof.Proof.Gen.Kernel.Launch
import proofs.«164905_j52501680227023_2_alg».proof.Proof.Gen.Kernel.Points
import proofs.«164905_j52501680227023_2_alg».proof.Proof.Gen.Kernel.Frame
import proofs.«164905_j52501680227023_2_alg».proof.Proof.Gen.KernelIdeal
import proofs.«164905_j52501680227023_2_alg».proof.Proof.Gen.KernelIdeal.Skeleton
import proofs.«164905_j52501680227023_2_alg».proof.Proof.Gen.KernelIdeal.Launch
import proofs.«164905_j52501680227023_2_alg».proof.Proof.Gen.KernelIdeal.Points
import proofs.«164905_j52501680227023_2_alg».proof.Proof.Gen.KernelIdeal.Frame
import proofs.«164905_j52501680227023_2_alg».proof.Proof.Gen.ReferenceIdeal
import proofs.«164905_j52501680227023_2_alg».proof.Proof.Gen.Pre_finite_inputs
import proofs.«164905_j52501680227023_2_alg».proof.Proof.KernelValue
import proofs.«164905_j52501680227023_2_alg».proof.Proof.RefValue
import proofs.«164905_j52501680227023_2_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation of the kernel. -/
theorem preserves : Cert.preserves_Kernel_KernelIdeal := trivial

/-- The reference's result is the common ending applied to its per-batch values and the union arrays. -/
theorem ref_result (pb : (⟨Cert.ReferenceIdeal.S8x4096x4, .f32⟩ : BufTy).Contents (Elt Ideal))
    (pc : (⟨Cert.ReferenceIdeal.S8x4096, .i32⟩ : BufTy).Contents (Elt Ideal))
    (gb : (⟨Cert.ReferenceIdeal.S8x2048x4, .f32⟩ : BufTy).Contents (Elt Ideal))
    (us : (⟨Cert.ReferenceIdeal.S4096, .f32⟩ : BufTy).Contents (Elt Ideal))
    (uc : (⟨Cert.ReferenceIdeal.S4096, .i32⟩ : BufTy).Contents (Elt Ideal)) :
    Cert.ReferenceIdeal.Read.val_main_v88 (F := Ideal) pb pc gb us uc
      = Cert.KernelIdeal.Tail.tailOf (F := Ideal) (Cert.ReferenceIdeal.Read.val_main_v79 (F := Ideal) pb pc gb) us uc := rfl

/-- The reference's per-batch values are the specification's. -/
theorem ref_vec (pb : (⟨Cert.ReferenceIdeal.S8x4096x4, .f32⟩ : BufTy).Contents (Elt Ideal))
    (pc : (⟨Cert.ReferenceIdeal.S8x4096, .i32⟩ : BufTy).Contents (Elt Ideal))
    (gb : (⟨Cert.ReferenceIdeal.S8x2048x4, .f32⟩ : BufTy).Contents (Elt Ideal)) :
    Cert.ReferenceIdeal.Read.val_main_v79 (F := Ideal) pb pc gb = Cert.KernelIdeal.KernelValue.perBatchVec pb pc gb := by
  funext j
  obtain ⟨b, rfl⟩ : ∃ b : Fin 8, j = ix1 b := ⟨j 0, eq_ix1 j⟩
  exact Cert.ReferenceIdeal.RefValue.ref_value pb pc gb b

/-- From memories agreeing on the arguments both programs end with the same pair. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [ref_result, ref_vec, (hagree c).1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
